-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  main_v53

def fn_part2 {F : FTy → Type} [FloatOps F] (main_arg8 : FVec F S128x128 .f32) (main_arg9 : FVec F S128x128 .f32) (main_arg10 : FVec F S128 .f32) (main_arg11 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100352x128 : Shape := ⟨2, ![100352, 128]⟩
abbrev S100352x1 : Shape := ⟨2, ![100352, 1]⟩
abbrev S1x128 : Shape := ⟨2, ![1, 128]⟩
abbrev S2048x128 : Shape := ⟨2, ![2048, 128]⟩
abbrev S2048x1 : Shape := ⟨2, ![2048, 1]⟩

abbrev nBuf : Space → Nat
  | .hbm => 107
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S100000x1, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S1600000x1, .f32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S_, .i32⟩
  | .hbm, ⟨40, _⟩ => ⟨S_, .f32⟩
  | .hbm, ⟨41, _⟩ => ⟨S100352x128, .f32⟩
  | .hbm, ⟨42, _⟩ => ⟨S_, .i32⟩
  | .hbm, ⟨43, _⟩ => ⟨S_, .f32⟩
  | .hbm, ⟨44, _⟩ => ⟨S100352x128, .f32⟩
  | .hbm, ⟨45, _⟩ => ⟨S_, .f32⟩
  | .hbm, ⟨46, _⟩ => ⟨S_, .f32⟩
  | .hbm, ⟨47, _⟩ => ⟨S100352x1, .f32⟩
  | .hbm, ⟨48, _⟩ => ⟨S1x128, .f32⟩
  | .hbm, ⟨49, _⟩ => ⟨S100352x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S1600000x1, .f32⟩
  | .hbm, ⟨61, _⟩ => ⟨S1600000x128, .f32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S_, .i32⟩
  | .hbm, ⟨68, _⟩ => ⟨S_, .f32⟩
  | .hbm, ⟨69, _⟩ => ⟨S100352x128, .f32⟩
  | .hbm, ⟨70, _⟩ => ⟨S_, .i32⟩
  | .hbm, ⟨71, _⟩ => ⟨S_, .f32⟩
  | .hbm, ⟨72, _⟩ => ⟨S100352x128, .f32⟩
  | .hbm, ⟨73, _⟩ => ⟨S_, .f32⟩
  | .hbm, ⟨74, _⟩ => ⟨S_, .f32⟩
  | .hbm, ⟨75, _⟩ => ⟨S100352x1, .f32⟩
  | .hbm, ⟨76, _⟩ => ⟨S1x128, .f32⟩
  | .hbm, ⟨77, _⟩ => ⟨S100352x128, .f32⟩
  | .hbm, ⟨78, _⟩ => ⟨S100000x128, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x128, .f32⟩
  | .hbm, ⟨88, _⟩ => ⟨S1600000x1, .f32⟩
  | .hbm, ⟨89, _⟩ => ⟨S1600000x128, .f32⟩
  | .hbm, ⟨90, _⟩ => ⟨S1600000x128, .f32⟩
  | .hbm, ⟨91, _⟩ => ⟨S_, .f32⟩
  | .hbm, ⟨92, _⟩ => ⟨S100000x128, .f32⟩
  | .hbm, ⟨93, _⟩ => ⟨S1600000x1, .i32⟩
  | .hbm, ⟨94, _⟩ => ⟨S100000x128, .f32⟩
  | .hbm, ⟨95, _⟩ => ⟨S_, .i32⟩
  | .hbm, ⟨96, _⟩ => ⟨S_, .f32⟩
  | .hbm, ⟨97, _⟩ => ⟨S100352x128, .f32⟩
  | .hbm, ⟨98, _⟩ => ⟨S_, .i32⟩
  | .hbm, ⟨99, _⟩ => ⟨S_, .f32⟩
  | .hbm, ⟨100, _⟩ => ⟨S100352x128, .f32⟩
  | .hbm, ⟨101, _⟩ => ⟨S_, .f32⟩
  | .hbm, ⟨102, _⟩ => ⟨S_, .f32⟩
  | .hbm, ⟨103, _⟩ => ⟨S100352x1, .f32⟩
  | .hbm, ⟨104, _⟩ => ⟨S1x128, .f32⟩
  | .hbm, ⟨105, _⟩ => ⟨S100352x128, .f32⟩
  | .hbm, ⟨106, _⟩ => ⟨S100000x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x1, .f32⟩
  | .local _ .vmem, ⟨5, _⟩ => ⟨S2048x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x1, .f32⟩
  | .local _ .vmem, ⟨16, _⟩ => ⟨S2048x1, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x1, .f32⟩
  | .local _ .vmem, ⟨27, _⟩ => ⟨S2048x1, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S2048x128, .f32⟩
  | .local _ .vmem, ⟨32, _⟩ => ⟨S2048x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_call0_v0 : Ref sig .tc := ⟨.hbm, 40, rfl⟩
abbrev main_v22 : Ref sig .tc := ⟨.hbm, 41, rfl⟩
abbrev main_c_4 : Ref sig .tc := ⟨.hbm, 42, rfl⟩
abbrev main_call1_v0 : Ref sig .tc := ⟨.hbm, 43, rfl⟩
abbrev main_v23 : Ref sig .tc := ⟨.hbm, 44, rfl⟩
abbrev main_cst_5 : Ref sig .tc := ⟨.hbm, 45, rfl⟩
abbrev main_call2_v0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_6 : Ref sig .tc := ⟨.hbm, 51, rfl⟩
abbrev main_v28 : Ref sig .tc := ⟨.hbm, 52, rfl⟩
abbrev main_v29 : Ref sig .tc := ⟨.hbm, 53, rfl⟩
abbrev main_c_7 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_9 : Ref sig .tc := ⟨.hbm, 67, rfl⟩
abbrev main_call3_v0 : Ref sig .tc := ⟨.hbm, 68, rfl⟩
abbrev main_v41 : Ref sig .tc := ⟨.hbm, 69, rfl⟩
abbrev main_c_10 : Ref sig .tc := ⟨.hbm, 70, rfl⟩
abbrev main_call4_v0 : Ref sig .tc := ⟨.hbm, 71, rfl⟩
abbrev main_v42 : Ref sig .tc := ⟨.hbm, 72, rfl⟩
abbrev main_cst_11 : Ref sig .tc := ⟨.hbm, 73, rfl⟩
abbrev main_call5_v0 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c_12 : Ref sig .tc := ⟨.hbm, 79, rfl⟩
abbrev main_v47 : Ref sig .tc := ⟨.hbm, 80, rfl⟩
abbrev main_v48 : Ref sig .tc := ⟨.hbm, 81, rfl⟩
abbrev main_c_13 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_14 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_c_15 : Ref sig .tc := ⟨.hbm, 95, rfl⟩
abbrev main_call6_v0 : Ref sig .tc := ⟨.hbm, 96, rfl⟩
abbrev main_v60 : Ref sig .tc := ⟨.hbm, 97, rfl⟩
abbrev main_c_16 : Ref sig .tc := ⟨.hbm, 98, rfl⟩
abbrev main_call7_v0 : Ref sig .tc := ⟨.hbm, 99, rfl⟩
abbrev main_v61 : Ref sig .tc := ⟨.hbm, 100, rfl⟩
abbrev main_cst_17 : Ref sig .tc := ⟨.hbm, 101, rfl⟩
abbrev main_call8_v0 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2048x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2048x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  pads_S100000x128_S100352x128_03520_000 : S100000x128.Pads (![0, 0] : Fin 2 → Nat) ![352, 0] ![0, 0] S100352x128
  h_S_ : 0 < S_.numel
  pads_S100000x1_S100352x1_03520_000 : S100000x1.Pads (![0, 0] : Fin 2 → Nat) ![352, 0] ![0, 0] S100352x1
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S100352x128_S100000x128_0_0 : S100352x128.Slices ![0, 0] S100000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S100352x128.size a
  hwx0_0 : ∀ i : grid0.Coords, EltTy.bits .f32 = 32 ∨ (Rect.block (s := S100352x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S100352x128.size a
  hwx0_1 : ∀ i : grid0.Coords, EltTy.bits .f32 = 32 ∨ (Rect.block (s := S100352x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S100352x1.size a
  hwx0_2 : ∀ i : grid0.Coords, EltTy.bits .f32 = 32 ∨ (Rect.block (s := S100352x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S100352x128.size a
  hwx0_6 : ∀ i : grid0.Coords, EltTy.bits .f32 = 32 ∨ (Rect.block (s := S100352x128) S2048x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S100352x128.size a
  hwx1_0 : ∀ i : grid1.Coords, EltTy.bits .f32 = 32 ∨ (Rect.block (s := S100352x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S100352x128.size a
  hwx1_1 : ∀ i : grid1.Coords, EltTy.bits .f32 = 32 ∨ (Rect.block (s := S100352x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S100352x1.size a
  hwx1_2 : ∀ i : grid1.Coords, EltTy.bits .f32 = 32 ∨ (Rect.block (s := S100352x1) S2048x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x128.size a ≤ S100352x128.size a
  hwx1_6 : ∀ i : grid1.Coords, EltTy.bits .f32 = 32 ∨ (Rect.block (s := S100352x128) S2048x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S100352x128.size a
  hwx2_0 : ∀ i : grid2.Coords, EltTy.bits .f32 = 32 ∨ (Rect.block (s := S100352x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S100352x128.size a
  hwx2_1 : ∀ i : grid2.Coords, EltTy.bits .f32 = 32 ∨ (Rect.block (s := S100352x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S100352x1.size a
  hwx2_2 : ∀ i : grid2.Coords, EltTy.bits .f32 = 32 ∨ (Rect.block (s := S100352x1) S2048x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2048x128.size a ≤ S100352x128.size a
  hwx2_6 : ∀ i : grid2.Coords, EltTy.bits .f32 = 32 ∨ (Rect.block (s := S100352x128) S2048x128.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v22) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S2048x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v41) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S2048x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v60) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v64) S2048x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 124
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S1600000x1, .f32⟩
  | .hbm, ⟨26, _⟩ => ⟨S1600000x128, .f32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S_, .f32⟩
  | .hbm, ⟨33, _⟩ => ⟨S1600000, .f32⟩
  | .hbm, ⟨34, _⟩ => ⟨S_, .f32⟩
  | .hbm, ⟨35, _⟩ => ⟨S100000, .f32⟩
  | .hbm, ⟨36, _⟩ => ⟨S1600000x1, .i32⟩
  | .hbm, ⟨37, _⟩ => ⟨S100000, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S1600000x1, .f32⟩
  | .hbm, ⟨63, _⟩ => ⟨S1600000x128, .f32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S_, .f32⟩
  | .hbm, ⟨70, _⟩ => ⟨S1600000, .f32⟩
  | .hbm, ⟨71, _⟩ => ⟨S_, .f32⟩
  | .hbm, ⟨72, _⟩ => ⟨S100000, .f32⟩
  | .hbm, ⟨73, _⟩ => ⟨S1600000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S100000x1, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S100000x128, .f32⟩
  | .hbm, ⟨89, _⟩ => ⟨S100000x128, .f32⟩
  | .hbm, ⟨90, _⟩ => ⟨S_, .i32⟩
  | .hbm, ⟨91, _⟩ => ⟨S1600000, .i32⟩
  | .hbm, ⟨92, _⟩ => ⟨S1600000, .i1⟩
  | .hbm, ⟨93, _⟩ => ⟨S_, .i32⟩
  | .hbm, ⟨94, _⟩ => ⟨S1600000, .i32⟩
  | .hbm, ⟨95, _⟩ => ⟨S1600000, .i32⟩
  | .hbm, ⟨96, _⟩ => ⟨S1600000, .i32⟩
  | .hbm, ⟨97, _⟩ => ⟨S1600000x1, .i32⟩
  | .hbm, ⟨98, _⟩ => ⟨S1600000x128, .f32⟩
  | .hbm, ⟨99, _⟩ => ⟨S1600000x1, .f32⟩
  | .hbm, ⟨100, _⟩ => ⟨S1600000x128, .f32⟩
  | .hbm, ⟨101, _⟩ => ⟨S1600000x128, .f32⟩
  | .hbm, ⟨102, _⟩ => ⟨S_, .f32⟩
  | .hbm, ⟨103, _⟩ => ⟨S100000x128, .f32⟩
  | .hbm, ⟨104, _⟩ => ⟨S1600000x1, .i32⟩
  | .hbm, ⟨105, _⟩ => ⟨S100000x128, .f32⟩
  | .hbm, ⟨106, _⟩ => ⟨S_, .f32⟩
  | .hbm, ⟨107, _⟩ => ⟨S1600000, .f32⟩
  | .hbm, ⟨108, _⟩ => ⟨S_, .f32⟩
  | .hbm, ⟨109, _⟩ => ⟨S100000, .f32⟩
  | .hbm, ⟨110, _⟩ => ⟨S1600000x1, .i32⟩
  | .hbm, ⟨111, _⟩ => ⟨S100000, .f32⟩
  | .hbm, ⟨112, _⟩ => ⟨S_, .f32⟩
  | .hbm, ⟨113, _⟩ => ⟨S100000, .f32⟩
  | .hbm, ⟨114, _⟩ => ⟨S100000, .f32⟩
  | .hbm, ⟨115, _⟩ => ⟨S100000x1, .f32⟩
  | .hbm, ⟨116, _⟩ => ⟨S100000x128, .f32⟩
  | .hbm, ⟨117, _⟩ => ⟨S100000x128, .f32⟩
  | .hbm, ⟨118, _⟩ => ⟨S100000x128, .f32⟩
  | .hbm, ⟨119, _⟩ => ⟨S1x128, .f32⟩
  | .hbm, ⟨120, _⟩ => ⟨S100000x128, .f32⟩
  | .hbm, ⟨121, _⟩ => ⟨S100000x128, .f32⟩
  | .hbm, ⟨122, _⟩ => ⟨S100000x128, .f32⟩
  | .hbm, ⟨123, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call0_cst : Ref sig .tc := ⟨.hbm, 50, rfl⟩
abbrev main_call0_v0 : Ref sig .tc := ⟨.hbm, 51, rfl⟩
abbrev main_v32 : Ref sig .tc := ⟨.hbm, 52, rfl⟩
abbrev main_c_4 : Ref sig .tc := ⟨.hbm, 53, rfl⟩
abbrev main_v33 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_7 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_call1_cst : Ref sig .tc := ⟨.hbm, 87, rfl⟩
abbrev main_call1_v0 : Ref sig .tc := ⟨.hbm, 88, rfl⟩
abbrev main_v61 : Ref sig .tc := ⟨.hbm, 89, rfl⟩
abbrev main_c_10 : Ref sig .tc := ⟨.hbm, 90, rfl⟩
abbrev main_v62 : Ref sig .tc := ⟨.hbm, 91, rfl⟩
abbrev main_v63 : Ref sig .tc := ⟨.hbm, 92, rfl⟩
abbrev main_c_11 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_12 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_13 : Ref sig .tc := ⟨.hbm, 106, rfl⟩
abbrev main_v75 : Ref sig .tc := ⟨.hbm, 107, rfl⟩
abbrev main_cst_14 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_15 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Run.lean ====
/-
  The idealized kernel's run, with every buffer's final contents named.

  The program is three tiled regions among stretches of array operations. The contents of the core's buffers
  after each stretch and each region are a fold from the launch memory (a stretch applies its operations; a region
  replaces its output array by what its tiles write back); the fold's last stage is `W25`. Composing the
  stretches and the regions in order: every weakly fair execution from a memory with zero counters terminates,
  nothing faulting, and at the return every buffer that outlives the regions holds the last stage's contents. In
  particular the returned array holds that stage at its buffer, and the argument arrays are as launched.
-/
import proofs.«170721_j13219909337540_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a core holds before the first stretch: its long-lived buffers at the launch contents, its generator
    register at some state, and no unit owed. -/
abbrev first (c : Dev nD) : sProp 𝕄 :=
  iprop(StableHlo.held (c : Thread nD τ) (Pipeline.ucRefs τ sig) (W0 m ρ c) ∗ R c)

/-- The launch's ghost element is the staging cells' initial one, and no core needs anything more of it. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  -- owning the launch element IS owning its image in the program's ghost state (by definition of the embedding)
  have hown : (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) := .rfl
  iintro Hu
  imodintro
  isplitl [Hu]
  · iapply hown
    iexact Hu
  · rw [BI.bigSep_emp_const]
    iempintro

/-- From what the launch deals a core — its long-lived buffers at the launch memory, its semaphores at zero,
    nothing owed, its generator register — the first thread state. -/
theorem first_state :
    iprop((bigSep Finset.univ fun c : Dev nD => iprop(unscopedBufs c (fun b => m ((c : Thread nD τ).loc b)) ∗ unscopedSems0 c
          ∗ owes (c : Thread nD τ) ((0 : Dev nD → CellTallies nD τ sig Unit) c) ∅ ∗ Pipeline.launchCred (0 : Dev nD → CellTallies nD τ sig Unit) c
          ∗ prngReg c (ρ c) ∗ (BI.emp : sProp 𝕄))) ∗ levAts L lv)
      ⊢ |={Set.univ}=> bigSep Finset.univ (first m ρ) := by
  refine Pipeline.initEach L lv fun c => ?_
  rw [show unscopedBufs c (fun b => m ((c : Thread nD τ).loc b)) = StableHlo.held (c : Thread nD τ) (Pipeline.ucRefs τ sig) (W0 m ρ c)
    from Pipeline.unscopedBufs_held c (W0 m ρ c)]
  iintro ⟨⟨Hbufs, Hsems, Howes, Hcred, Hreg, Hemp⟩, Hlev⟩
  imodintro
  isplitl [Hbufs]
  · iexact Hbufs
  isplitl [Hreg]
  · iexists _
    iexact Hreg
  · iexists ∅
    iexact Howes

/-- Consecutive segments agree: each is entered from exactly what the one before it leaves, and the last leaves
    the final thread state beside a core that owes nothing. -/
theorem chain : Pipeline.Seg.Chains (first m ρ) (segs m ρ)
    (fun c => iprop(Tₙ m ρ c ∗ ∃ W, owes (c : Thread nD τ) (0 : CellTallies nD τ sig Unit) W)) := by
  refine ⟨fun _ => .rfl, fun _ => .rfl, fun _ => .rfl, fun _ => .rfl, fun _ => .rfl, fun _ => .rfl, fun _ => .rfl, fun _ => .rfl,
    fun _ => .rfl, fun _ => .rfl, fun _ => .rfl, fun _ => .rfl, fun _ => .rfl, fun _ => .rfl, fun _ => .rfl, fun _ => .rfl,
    fun _ => .rfl, fun _ => .rfl, fun _ => .rfl, fun _ => .rfl, fun _ => .rfl, fun _ => .rfl, fun _ => .rfl, fun _ => .rfl,
    fun _ => .rfl, fun c => ?_⟩
  dsimp only [Pipeline.Seg.post, hseg, Pipeline.HostSeg.ofOps]
  iintro ⟨Hheld, Hreg, Howes⟩
  isplitr [Howes]
  · isplitl [Hheld]
    · iexact Hheld
    · iexact Hreg
  · iexact Howes

/-- The last thread state read against a final memory: every long-lived buffer holds the last stage's contents. -/
theorem read_last (c : Dev nD) (s' : Phys nD τ sig (Elt F)) :
    iprop(Tₙ m ρ c ∗ SI s') ⊢ |={Set.univ}=> iprop(⌜∀ b ∈ Pipeline.ucRefs τ sig, s'.mem.mem (((c : Thread nD τ)).1, b) = W25 m ρ c b⌝ ∗ SI s') := by
  iintro ⟨⟨Hheld, Hreg⟩, HSI⟩
  unfold StableHlo.held
  imodintro
  iapply (pointsTo_read_all (Pipeline.ucRefs τ sig) (fun b => (((c : Thread nD τ)).1, b)) (W25 m ρ c) s')
  isplitl [Hheld]
  · iexact Hheld
  · iexact HSI

set_option backward.isDefEq.respectTransparency.types false in
/-- THE RUN. Every weakly fair execution terminates, nothing faulting, and at the return every buffer that outlives
    the regions holds the fold's last stage. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W25 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_ghost)
    (T₀ := first m ρ) (Tₙ := Tₙ m ρ)
    (hch := chain m ρ)
    (hinit := first_state m ρ)
    (QY := fun c s => ∀ b ∈ Pipeline.ucRefs τ sig, s.mem (((c : Thread nD τ)).1, b) = W25 m ρ c b)
    (hfin := read_last m ρ)
    (hQ := fun s h => h)

/-- The run with the returned array and the arguments named: the returned array holds the last stage at its buffer,
    and each argument array is as launched (no stretch and no region writes one). -/
theorem run : θ_run defs (onTc (τ := τ) (main (F := F))) ⟨m, fun _ => 0, ρ⟩ (fun r => ∀ c : Dev nD,
      r.2.mem ((c.tc : Thread nD τ).loc main_v65) = W25 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v65 (by decide)),
     (h c _ (mem_uc main_arg0 (by decide))).trans (W25_main_arg0 m ρ c),
     (h c _ (mem_uc main_arg1 (by decide))).trans (W25_main_arg1 m ρ c),
     (h c _ (mem_uc main_arg2 (by decide))).trans (W25_main_arg2 m ρ c),
     (h c _ (mem_uc main_arg3 (by decide))).trans (W25_main_arg3 m ρ c),
     (h c _ (mem_uc main_arg4 (by decide))).trans (W25_main_arg4 m ρ c),
     (h c _ (mem_uc main_arg5 (by decide))).trans (W25_main_arg5 m ρ c),
     (h c _ (mem_uc main_arg6 (by decide))).trans (W25_main_arg6 m ρ c),
     (h c _ (mem_uc main_arg7 (by decide))).trans (W25_main_arg7 m ρ c),
     (h c _ (mem_uc main_arg8 (by decide))).trans (W25_main_arg8 m ρ c),
     (h c _ (mem_uc main_arg9 (by decide))).trans (W25_main_arg9 m ρ c),
     (h c _ (mem_uc main_arg10 (by decide))).trans (W25_main_arg10 m ρ c),
     (h c _ (mem_uc main_arg11 (by decide))).trans (W25_main_arg11 m ρ c)⟩)
    (run_all m ρ)

end Cert.KernelIdeal.Named

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«170721_j13219909337540_1_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.Sage.lean ====
/-
  One layer of a mean-aggregating graph convolution, entry by entry, on the extended reals.

  Node r has a feature row H(r, ·), a row A(r, ·) of weighted features summed over its incoming edges, and
  an incoming-edge count deg(r). The layer divides the summed row by max(deg(r), 1) — the mean over the incoming
  edges, with an isolated node's empty sum left as it is —, multiplies the mean by one weight matrix, adds a bias
  row, and adds the node's own row times a second weight matrix:

      pre(r, q) = (sum over k of (A(r,k) / max(deg r, 1)) * Wl(k,q)) + bl(q) + sum over k of H(r,k) * Wr(k,q).

  A hidden layer then keeps the positive part, max(pre, 0); the last layer does not. The one and the zero are
  kept as the single-precision words the programs spell them with; nothing here evaluates them.
-/
import Idealize.ShloMosaic.PureOps.Ideal
import Idealize.ShloMosaic.Lib.ValueIdx

noncomputable section

namespace Sage

open Idealize.ShloMosaic Idealize.ShloMosaic.ValueIdx

/-- The word of the constant one. -/
abbrev one : EReal := Ideal.ofBits .f32 0x3F800000#32
/-- The word of the constant zero. -/
abbrev zero : EReal := Ideal.ofBits .f32 0x00000000#32

/-- The affine part of one layer at node `r` and output feature `q`. -/
def pre {n d e : ℕ} (A H : (⟨2, ![n, d]⟩ : Shape).Idx → EReal) (deg : (⟨1, ![n]⟩ : Shape).Idx → EReal)
    (Wl Wr : (⟨2, ![d, e]⟩ : Shape).Idx → EReal) (bl : (⟨1, ![e]⟩ : Shape).Idx → EReal) (r : Fin n) (q : Fin e) : EReal :=
  (∑ k : Fin d, Ideal.div (A (ix2 r k)) (max (deg (ix1 r)) one) * Wl (ix2 k q)) + bl (ix1 q)
    + ∑ k : Fin d, H (ix2 r k) * Wr (ix2 k q)

/-- A hidden layer keeps the positive part; the last layer keeps the value. -/
def act (relu : Bool) (v : EReal) : EReal := if relu = true then max v zero else v

theorem act_true (v : EReal) : act true v = max v zero := if_pos rfl
theorem act_false (v : EReal) : act false v = v := if_neg (by decide)

/-- One layer at an entry. -/
def layerAt {n d e : ℕ} (relu : Bool) (A H : (⟨2, ![n, d]⟩ : Shape).Idx → EReal) (deg : (⟨1, ![n]⟩ : Shape).Idx → EReal)
    (Wl Wr : (⟨2, ![d, e]⟩ : Shape).Idx → EReal) (bl : (⟨1, ![e]⟩ : Shape).Idx → EReal) (r : Fin n) (q : Fin e) : EReal :=
  act relu (pre A H deg Wl Wr bl r q)

end Sage

end
-- ==== Proof.Tile.lean ====
/-
  The tile body of one layer, read at an entry.

  At each grid point the body holds a tile of 2048 nodes: the summed neighbour rows a, the nodes' own rows x, the
  incoming-edge counts d as a column, both weight matrices whole and the bias as a row. It divides a by the
  column max(d, 1) repeated across the features, multiplies by Wl on the matrix unit (into a zero accumulator,
  the operands narrowed to half precision: no change on the extended reals), adds the bias row repeated down
  the tile, adds x times Wr, and — in the two hidden layers — keeps the positive part. At local node p and
  feature q that is the layer's formula over the tile's own rows.
-/
import proofs.«170721_j13219909337540_1_alg».proof.Proof.Gen.KernelIdeal.Skeleton
import proofs.«170721_j13219909337540_1_alg».proof.Proof.LibDotRecord
import proofs.«170721_j13219909337540_1_alg».proof.Proof.LibRowOps
import proofs.«170721_j13219909337540_1_alg».proof.Proof.Sage
import Idealize.ShloMosaic.Lib.Pipeline.Value
import Idealize.ShloMosaic.Lib.ValueIdx

noncomputable section

namespace Cert.KernelIdeal.Tile

open Cert.KernelIdeal Cert.KernelIdeal.Gen Idealize.ShloMosaic Idealize.ShloMosaic.ValueIdx

/-- The affine part over a tile's own rows, at local node `p` and feature `q`. -/
def tilePre (a x : FVec Ideal S2048x128 .f32) (d : FVec Ideal S2048x1 .f32) (Wl Wr : FVec Ideal S128x128 .f32)
    (bl : FVec Ideal S1x128 .f32) (p : Fin 2048) (q : Fin 128) : EReal :=
  (∑ k : Fin 128, Ideal.div (a (ix2 p k)) (max (d (ix2 p (0 : Fin 1))) Sage.one) * Wl (ix2 k q)) + bl (ix2 (0 : Fin 1) q)
    + ∑ k : Fin 128, x (ix2 p k) * Wr (ix2 k q)

/-- The mean row at `(p, k)`: the tile's summed row divided by the broadcast column `max(d, 1)`. -/
theorem mean_apply (a : FVec Ideal S2048x128 .f32) (d : FVec Ideal S2048x1 .f32) (p : Fin 2048) (k : Fin 128) :
    truncf (F := Ideal) .bf16 (divf (shapeCast S2048x128 a shapeCasts_S2048x128_S2048x128)
        (broadcastTo S2048x128 (maximumf (shapeCast S2048x1 d shapeCasts_S2048x1_S2048x1)
          (broadcast S2048x1 (Scalar.ofBits (F := Ideal) .f32 0x3F800000#32))) broadcasts_S2048x1_S2048x128)) bitsLt_bf16_f32 (ix2 p k)
      = Ideal.div (a (ix2 p k)) (max (d (ix2 p (0 : Fin 1))) Sage.one) := by
  show Ideal.div (shapeCast S2048x128 a shapeCasts_S2048x128_S2048x128 (ix2 p k))
      (broadcastTo S2048x128 (maximumf (shapeCast S2048x1 d shapeCasts_S2048x1_S2048x1)
          (broadcast S2048x1 (Scalar.ofBits (F := Ideal) .f32 0x3F800000#32))) broadcasts_S2048x1_S2048x128 (ix2 p k)) = _
  rw [shapeCast_self, shapeCast_self, Gcn.Lib.broadcastTo_a1_ab_apply]
  rfl

/-- The last layer's stored tile (no rectifier) at `(p, q)`. -/
theorem pay2_apply (a : FVec Ideal S2048x128 .f32) (d : FVec Ideal S2048x1 .f32) (x : FVec Ideal S2048x128 .f32)
    (Wl Wr : FVec Ideal S128x128 .f32) (bl : FVec Ideal S1x128 .f32) (p : Fin 2048) (q : Fin 128) :
    k2_pay1 (F := Ideal) a d x Wl Wr bl (ix2 p q) = tilePre a x d Wl Wr bl p q := by
  unfold k2_pay1 tilePre
  refine congrArg₂ (· + ·) (congrArg₂ (· + ·) ?_ ?_) ?_
  · refine (DotRecord.matmul_zero_apply dot_S2048x128_S128x128_S2048x128_1_0_0_1_n_n rfl rfl rfl rfl rfl rfl _ _ none p q).trans ?_
    refine Finset.sum_congr rfl fun k _ => congrArg₂ (· * ·) (mean_apply a d p k) rfl
  · refine (DotRecord.broadcastTo_1b_ab_apply _ broadcasts_S1x128_S2048x128 p q).trans ?_
    rw [shapeCast_self]
  · refine (DotRecord.matmul_zero_apply dot_S2048x128_S128x128_S2048x128_1_0_0_1_n_n rfl rfl rfl rfl rfl rfl _ _ none p q).trans ?_
    refine Finset.sum_congr rfl fun k _ => congrArg₂ (· * ·) ?_ rfl
    show shapeCast S2048x128 x shapeCasts_S2048x128_S2048x128 (ix2 p k) = _
    rw [shapeCast_self]

/-- The first hidden layer's stored tile at `(p, q)`: the positive part. -/
theorem pay0_apply (a : FVec Ideal S2048x128 .f32) (d : FVec Ideal S2048x1 .f32) (x : FVec Ideal S2048x128 .f32)
    (Wl Wr : FVec Ideal S128x128 .f32) (bl : FVec Ideal S1x128 .f32) (p : Fin 2048) (q : Fin 128) :
    k0_pay1 (F := Ideal) a d x Wl Wr bl (ix2 p q) = max (tilePre a x d Wl Wr bl p q) Sage.zero :=
  congrArg (fun v => max v Sage.zero) (pay2_apply a d x Wl Wr bl p q)

/-- The second hidden layer's stored tile at `(p, q)`: the positive part. -/
theorem pay1_apply (a : FVec Ideal S2048x128 .f32) (d : FVec Ideal S2048x1 .f32) (x : FVec Ideal S2048x128 .f32)
    (Wl Wr : FVec Ideal S128x128 .f32) (bl : FVec Ideal S1x128 .f32) (p : Fin 2048) (q : Fin 128) :
    k1_pay1 (F := Ideal) a d x Wl Wr bl (ix2 p q) = max (tilePre a x d Wl Wr bl p q) Sage.zero :=
  congrArg (fun v => max v Sage.zero) (pay2_apply a d x Wl Wr bl p q)

end Cert.KernelIdeal.Tile

end
-- ==== Proof.Padded.lean ====
/-
  One layer over the padded node range, as a single function of whole arrays, and a tile as its block.

  The tiled region works on arrays of 100352 = 49 * 2048 rows (the 100000 nodes padded to whole tiles). Over
  those arrays the layer is one function, entry by entry: at padded node r and feature q it is the layer's
  formula over row r of the summed-neighbour array A, of the feature array X and of the count column D, the
  weight matrices and the bias row whole. A grid point's stored tile is that function's block: the tile at
  point t holds rows t * 2048 .. t * 2048 + 2047, so what the body computes from its own tile rows at local
  (p, q) is the function at (t * 2048 + p, q).
-/
import proofs.«170721_j13219909337540_1_alg».proof.Proof.Tile

noncomputable section

namespace Cert.KernelIdeal.Padded

open Cert.KernelIdeal Cert.KernelIdeal.Gen Cert.KernelIdeal.Tile Idealize.ShloMosaic Idealize.ShloMosaic.ValueIdx

/-- The layer at padded node `r` and feature `q`, over whole padded arrays. -/
def padAt (relu : Bool) (A X : FVec Ideal S100352x128 .f32) (D : FVec Ideal S100352x1 .f32) (Wl Wr : FVec Ideal S128x128 .f32)
    (bl : FVec Ideal S1x128 .f32) (r : Fin 100352) (q : Fin 128) : EReal :=
  Sage.act relu ((∑ k : Fin 128, Ideal.div (A (ix2 r k)) (max (D (ix2 r (0 : Fin 1))) Sage.one) * Wl (ix2 k q))
    + bl (ix2 (0 : Fin 1) q) + ∑ k : Fin 128, X (ix2 r k) * Wr (ix2 k q))

/-- The layer over the padded node range as one array. -/
def padded (relu : Bool) (A X : FVec Ideal S100352x128 .f32) (D : FVec Ideal S100352x1 .f32) (Wl Wr : FVec Ideal S128x128 .f32)
    (bl : FVec Ideal S1x128 .f32) : FVec Ideal S100352x128 .f32 :=
  fun i => padAt relu A X D Wl Wr bl (i 0) (i 1)

theorem padded_apply (relu : Bool) (A X : FVec Ideal S100352x128 .f32) (D : FVec Ideal S100352x1 .f32)
    (Wl Wr : FVec Ideal S128x128 .f32) (bl : FVec Ideal S1x128 .f32) (r : Fin 100352) (q : Fin 128) :
    padded relu A X D Wl Wr bl (ix2 r q) = padAt relu A X D Wl Wr bl r q := rfl

/-- Row `p` of the tile at grid point `t` is padded node `t * 2048 + p`. -/
def row (t : Fin 49) (p : Fin 2048) : Fin 100352 := ⟨t.val * 2048 + p.val, by have := t.isLt; have := p.isLt; omega⟩

/-- A stored tile is the padded layer's block: if the tile's own rows are rows `t * 2048 + p` of the whole
    arrays and its matrices and bias row are the whole ones, then what the body stores at local `j` is the padded
    layer at the array index `i` that sits at `j` in the block. -/
theorem block_eq (relu : Bool)
    (pay : Vec Ideal S2048x128 .f32 → Vec Ideal S2048x1 .f32 → Vec Ideal S2048x128 .f32 → Vec Ideal S128x128 .f32 →
      Vec Ideal S128x128 .f32 → Vec Ideal S1x128 .f32 → FVec Ideal S2048x128 .f32)
    (hpay : ∀ a d x Wl Wr bl (p : Fin 2048) (q : Fin 128), pay a d x Wl Wr bl (ix2 p q) = Sage.act relu (tilePre a x d Wl Wr bl p q))
    (x0 x1 : FVec Ideal S2048x128 .f32) (x2 : FVec Ideal S2048x1 .f32) (x3 x5 : FVec Ideal S128x128 .f32) (x4 : FVec Ideal S1x128 .f32)
    (A X : FVec Ideal S100352x128 .f32) (D : FVec Ideal S100352x1 .f32) (Wl Wr : FVec Ideal S128x128 .f32) (bl : FVec Ideal S1x128 .f32)
    (t : Fin 49)
    (h0 : ∀ (p : Fin 2048) (k : Fin 128), x0 (ix2 p k) = A (ix2 (row t p) k))
    (h1 : ∀ (p : Fin 2048) (k : Fin 128), x1 (ix2 p k) = X (ix2 (row t p) k))
    (h2 : ∀ (p : Fin 2048), x2 (ix2 p (0 : Fin 1)) = D (ix2 (row t p) (0 : Fin 1)))
    (h3 : x3 = Wl) (h4 : x4 = bl) (h5 : x5 = Wr)
    (j : S2048x128.Idx) (i : S100352x128.Idx) (hi0 : (i 0).val = t.val * 2048 + (j 0).val) (hi1 : (i 1).val = (j 1).val) :
    pay x0 x2 x1 x3 x5 x4 j = padded relu A X D Wl Wr bl i := by
  obtain ⟨p, q, rfl⟩ : ∃ (p : Fin 2048) (q : Fin 128), j = ix2 p q := ⟨j 0, j 1, eq_ix2 j⟩
  have hi : i = ix2 (row t p) q := by
    funext a
    apply Fin.ext
    match a with
    | ⟨0, _⟩ => exact hi0
    | ⟨1, _⟩ => exact hi1
  subst hi h3 h4 h5
  rw [hpay, padded_apply]
  unfold padAt tilePre
  simp only [h0, h1, h2]

end Cert.KernelIdeal.Padded

end
-- ==== Proof.KLayer.lean ====
/-
  The kernel's program, one layer at a time.

  Around each tiled region the program prepares the region's operands with whole-array operations and cuts its
  result back: the edges' source rows are gathered from the layer's input (a negative source index counted from
  the end), multiplied by the edge weights and summed into destination rows; the summed rows and the input are
  padded with 352 rows of zeros, and the incoming-edge counts — ones summed into destination nodes, as a column —
  with 352 rows of ones, to 100352 = 49 * 2048 rows; the bias becomes a row; the region leaves the padded layer;
  the first 100000 rows are kept. A kept row never reads a padding row, so at node r and feature q the kept
  array is the layer's formula over the summed rows — the gather and the two sums carried as functions of the
  layer's input and never opened.
-/
import proofs.«170721_j13219909337540_1_alg».proof.Proof.Gen.KernelIdeal
import proofs.«170721_j13219909337540_1_alg».proof.Proof.Padded
import proofs.«170721_j13219909337540_1_alg».proof.Proof.Sage
import Idealize.ShloMosaic.Lib.KernelVsHost
import Idealize.ShloMosaic.Lib.Pipeline.Value

noncomputable section

namespace Cert.KernelIdeal.Layer

open Cert.KernelIdeal Cert.KernelIdeal.Gen Cert.KernelIdeal.Padded Idealize.ShloMosaic Idealize.ShloMosaic.ValueIdx

/-- The edges' source nodes: row 0 of the edge list. -/
def src (ei : IVec S2x1600000 32) : IVec S1600000 32 :=
  shapeCast _ (extractStridedSlice S1x1600000 ![0, 0] ei slices_S2x1600000_S1x1600000_0_0) shapeCasts_S1x1600000_S1600000

/-- The edges' destination nodes: row 1 of the edge list. -/
def dst (ei : IVec S2x1600000 32) : IVec S1600000 32 :=
  shapeCast _ (extractStridedSlice S1x1600000 ![1, 0] ei slices_S2x1600000_S1x1600000_1_0) shapeCasts_S1x1600000_S1600000

/-- The weighted neighbour sum of the node features `H`, from the edges' source and destination nodes: source rows
    gathered (a negative source counted from the end), scaled by the edge weights, summed into destination rows. -/
def aggOf (s d : IVec S1600000 32) (w : FVec Ideal S1600000 .f32) (H : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (mulf (Host.gather gather_S100000x128_S1600000x1_S1600000x128_1_0_n_n_0_1_1128 H
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s)))
      (broadcastInDim S1600000x128 ![0, 1] bcast_S1600000x1_S1600000x128_0_1
        (broadcastInDim S1600000x1 ![0] bcast_S1600000_S1600000x1_0 w)))

/-- The weighted neighbour sum over the edge list. -/
def agg (ei : IVec S2x1600000 32) (w : FVec Ideal S1600000 .f32) (H : FVec Ideal S100000x128 .f32) : FVec Ideal S100000x128 .f32 :=
  aggOf (src ei) (dst ei) w H

/-- The incoming-edge counts: ones summed into destination nodes. -/
def deg (ei : IVec S2x1600000 32) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 (dst ei))
    (broadcastInDim S1600000 ![] bcast_S_S1600000 (constant (F := Ideal) S_ .f32 0x3F800000#32))

/-- The counts as a column. -/
def degCol (ei : IVec S2x1600000 32) : FVec Ideal S100000x1 .f32 :=
  broadcastInDim S100000x1 ![0] bcast_S100000_S100000x1_0 (deg ei)

/-- One layer as the program computes it from its input `H`: operands prepared and padded (with any padding
    values `z₁ z₂ z₃`), the padded layer, the first 100000 rows kept. -/
def layer (relu : Bool) (z₁ z₂ z₃ : FVec Ideal S_ .f32) (ei : IVec S2x1600000 32) (w : FVec Ideal S1600000 .f32)
    (Wl : FVec Ideal S128x128 .f32) (bl : FVec Ideal S128 .f32) (Wr : FVec Ideal S128x128 .f32) (H : FVec Ideal S100000x128 .f32) :
    FVec Ideal S100000x128 .f32 :=
  extractStridedSlice S100000x128 ![0, 0]
    (padded relu
      (pad S100352x128 ![0, 0] ![352, 0] ![0, 0] (agg ei w H) z₁ pads_S100000x128_S100352x128_03520_000 h_S_)
      (pad S100352x128 ![0, 0] ![352, 0] ![0, 0] H z₂ pads_S100000x128_S100352x128_03520_000 h_S_)
      (pad S100352x1 ![0, 0] ![352, 0] ![0, 0] (degCol ei) z₃ pads_S100000x1_S100352x1_03520_000 h_S_)
      Wl Wr (shapeCast S1x128 bl shapeCasts_S128_S1x128))
    slices_S100352x128_S100000x128_0_0

/-- Node `r` as a row of the padded range. -/
def up (r : Fin 100000) : Fin 100352 := ⟨r.val, by have := r.isLt; omega⟩

/-- A padded feature array at a kept row is the array there. -/
theorem pad_rows (x : FVec Ideal S100000x128 .f32) (z : FVec Ideal S_ .f32) (r : Fin 100000) (k : Fin 128) :
    pad S100352x128 ![0, 0] ![352, 0] ![0, 0] x z pads_S100000x128_S100352x128_03520_000 h_S_ (ix2 (up r) k) = x (ix2 r k) :=
  pad_apply_of_inside ![0, 0] ![352, 0] ![0, 0] x z pads_S100000x128_S100352x128_03520_000 h_S_ (ix2 (up r) k) (ix2 r k)
    (fun a => match a with
      | ⟨0, _⟩ => by show r.val = 0 + r.val * (0 + 1); omega
      | ⟨1, _⟩ => by show k.val = 0 + k.val * (0 + 1); omega)

/-- The padded count column at a kept row is the node's count. -/
theorem pad_col (ei : IVec S2x1600000 32) (z : FVec Ideal S_ .f32) (r : Fin 100000) :
    pad S100352x1 ![0, 0] ![352, 0] ![0, 0] (degCol ei) z pads_S100000x1_S100352x1_03520_000 h_S_ (ix2 (up r) (0 : Fin 1)) = deg ei (ix1 r) := by
  rw [pad_apply_of_inside ![0, 0] ![352, 0] ![0, 0] (degCol ei) z pads_S100000x1_S100352x1_03520_000 h_S_ (ix2 (up r) (0 : Fin 1)) (ix2 r (0 : Fin 1))
    (fun a => match a with
      | ⟨0, _⟩ => by show r.val = 0 + r.val * (0 + 1); omega
      | ⟨1, _⟩ => by show 0 = 0 + 0 * (0 + 1); omega)]
  unfold degCol
  exact broadcastInDim_apply _ bcast_S100000_S100000x1_0 _ (ix2 r (0 : Fin 1)) (ix1 r) (fun a => match a with
    | ⟨0, _⟩ => by show r.val = if (100000 : Nat) = 1 then 0 else r.val; rw [if_neg (by decide)])

/-- The bias as a row, at feature `q`. -/
theorem bias_row (bl : FVec Ideal S128 .f32) (q : Fin 128) :
    shapeCast S1x128 bl shapeCasts_S128_S1x128 (ix2 (0 : Fin 1) q) = bl (ix1 q) :=
  shapeCast_apply bl shapeCasts_S128_S1x128 (ix2 (0 : Fin 1) q) (ix1 q) (by
    rw [Shape.rowMajor_val_two, Shape.rowMajor_val_one]
    show q.val = 0 * 128 + q.val
    omega)

/-- The layer at node `r` and feature `q`. -/
theorem layer_apply (relu : Bool) (z₁ z₂ z₃ : FVec Ideal S_ .f32) (ei : IVec S2x1600000 32) (w : FVec Ideal S1600000 .f32)
    (Wl : FVec Ideal S128x128 .f32) (bl : FVec Ideal S128 .f32) (Wr : FVec Ideal S128x128 .f32) (H : FVec Ideal S100000x128 .f32)
    (r : Fin 100000) (q : Fin 128) :
    layer relu z₁ z₂ z₃ ei w Wl bl Wr H (ix2 r q) = Sage.layerAt relu (agg ei w H) H (deg ei) Wl Wr bl r q := by
  unfold layer
  rw [extractStridedSlice_apply ![0, 0] _ slices_S100352x128_S100000x128_0_0 (ix2 r q) (ix2 (up r) q) (fun a => match a with
      | ⟨0, _⟩ => by show r.val = 0 + r.val; omega
      | ⟨1, _⟩ => by show q.val = 0 + q.val; omega),
    padded_apply]
  unfold padAt Sage.layerAt Sage.pre
  simp only [pad_rows, pad_col, bias_row]

end Cert.KernelIdeal.Layer

end
-- ==== Proof.Region0.lean ====
/-
  The first hidden layer's tiled region: the array it leaves.

  The region runs the tile body at 49 grid points. Point t reads rows t * 2048 .. t * 2048 + 2047 of the padded
  summed-neighbour array, of the padded feature array and of the padded count column, both weight matrices and
  the bias row whole, and writes rows t * 2048 .. t * 2048 + 2047 of the output. Each written tile is a block
  of ONE function of the whole operand arrays (the padded layer), and the 49 tiles cover the output's 100352
  rows, so after the region the output array is that function — whatever the buffers held when the region was
  entered (`V`).
-/
import proofs.«170721_j13219909337540_1_alg».proof.Proof.Gen.KernelIdeal.Frame
import proofs.«170721_j13219909337540_1_alg».proof.Proof.Padded

set_option maxRecDepth 16384

noncomputable section

namespace Cert.KernelIdeal.Region0

open Cert.KernelIdeal Cert.KernelIdeal.Gen Cert.KernelIdeal.Tile Cert.KernelIdeal.Padded
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The grid point as a number below 49. -/
abbrev pt (t : Fin cfg0.N) : Fin 49 := Fin.cast N_0 t

/-- The printed index maps, decided over the grid: the row-tiled windows sit at block row `t`, block column 0; the
    matrices and the bias row at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The summed-neighbour tile at point `t`: rows `t * 2048 + p` of its array. -/
theorem rows0 (c : Dev nD) (t : Fin cfg0.N) (p : Fin 2048) (k : Fin 128) :
    (iblk0 V c 0 t : FVec Ideal S2048x128 .f32) (ix2 p k) = V c main_v22 (ix2 (row (pt t) p) k) := by
  obtain ⟨e0, e1, -⟩ := idx_facts t
  show V c main_v22 (((cfg0.win 0).blk t).view.emb (ix2 p k)) = _
  refine congrArg (V c main_v22) (funext fun a => Fin.ext ?_)
  match a with
  | ⟨0, _⟩ => show win0_0.index t (0 : Fin 2) * 2048 + 1 * p.val = t.val * 2048 + p.val; rw [e0]; omega
  | ⟨1, _⟩ => show win0_0.index t (1 : Fin 2) * 128 + 1 * k.val = k.val; rw [e1]; omega

/-- The feature tile at point `t`: rows `t * 2048 + p` of its array. -/
theorem rows1 (c : Dev nD) (t : Fin cfg0.N) (p : Fin 2048) (k : Fin 128) :
    (iblk0 V c 1 t : FVec Ideal S2048x128 .f32) (ix2 p k) = V c main_v23 (ix2 (row (pt t) p) k) := by
  obtain ⟨-, -, e0, e1, -⟩ := idx_facts t
  show V c main_v23 (((cfg0.win 1).blk t).view.emb (ix2 p k)) = _
  refine congrArg (V c main_v23) (funext fun a => Fin.ext ?_)
  match a with
  | ⟨0, _⟩ => show win0_1.index t (0 : Fin 2) * 2048 + 1 * p.val = t.val * 2048 + p.val; rw [e0]; omega
  | ⟨1, _⟩ => show win0_1.index t (1 : Fin 2) * 128 + 1 * k.val = k.val; rw [e1]; omega

/-- The count column's tile at point `t`: rows `t * 2048 + p` of the column. -/
theorem rows2 (c : Dev nD) (t : Fin cfg0.N) (p : Fin 2048) :
    (iblk0 V c 2 t : FVec Ideal S2048x1 .f32) (ix2 p (0 : Fin 1)) = V c main_v24 (ix2 (row (pt t) p) (0 : Fin 1)) := by
  obtain ⟨-, -, -, -, e0, e1, -⟩ := idx_facts t
  show V c main_v24 (((cfg0.win 2).blk t).view.emb (ix2 p (0 : Fin 1))) = _
  refine congrArg (V c main_v24) (funext fun a => Fin.ext ?_)
  match a with
  | ⟨0, _⟩ => show win0_2.index t (0 : Fin 2) * 2048 + 1 * p.val = t.val * 2048 + p.val; rw [e0]; omega
  | ⟨1, _⟩ => show win0_2.index t (1 : Fin 2) * 1 + 1 * 0 = 0; rw [e1]

/-- The first weight matrix is staged whole. -/
theorem whole3 (c : Dev nD) (t : Fin cfg0.N) : (iblk0 V c 3 t : FVec Ideal S128x128 .f32) = V c main_arg3 := by
  obtain ⟨-, -, -, -, -, -, e0, e1, -⟩ := idx_facts t
  funext y
  show V c main_arg3 (((cfg0.win 3).blk t).view.emb y) = _
  refine congrArg (V c main_arg3) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The bias row is staged whole. -/
theorem whole4 (c : Dev nD) (t : Fin cfg0.N) : (iblk0 V c 4 t : FVec Ideal S1x128 .f32) = V c main_v25 := by
  obtain ⟨-, -, -, -, -, -, -, -, e0, e1, -⟩ := idx_facts t
  funext y
  show V c main_v25 (((cfg0.win 4).blk t).view.emb y) = _
  refine congrArg (V c main_v25) (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- The second weight matrix is staged whole. -/
theorem whole5 (c : Dev nD) (t : Fin cfg0.N) : (iblk0 V c 5 t : FVec Ideal S128x128 .f32) = V c main_arg5 := by
  obtain ⟨-, -, -, -, -, -, -, -, -, -, e0, e1, -⟩ := idx_facts t
  funext y
  show V c main_arg5 (((cfg0.win 5).blk t).view.emb y) = _
  refine congrArg (V c main_arg5) (funext fun a => Fin.ext ?_)
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- What point `t` writes back is block `t` of the padded layer of the operand arrays as the region finds them. -/
theorem flushed_eq (c : Dev nD) (t : Fin cfg0.N) :
    (dat0 V c).flushed 6 t = ((cfg0.win 6).blk t).view.read (Elt Ideal)
      (padded true (V c main_v22) (V c main_v23) (V c main_v24) (V c main_arg3) (V c main_arg5) (V c main_v25)) := by
  show (cfg0.win 6).cut (grid0.coords t) ((dat0 V c).after 6 t) = _
  rw [after0_6]
  unfold out0_6
  rw [View.canon_unit_zero hz]
  simp only [View.ld_unit_zero (S := S2048x128) hz, View.ld_unit_zero (S := S2048x1) hz, View.ld_unit_zero (S := S128x128) hz,
    View.ld_unit_zero (S := S1x128) hz]
  obtain ⟨-, -, -, -, -, -, -, -, -, -, -, -, e0, e1⟩ := idx_facts t
  funext j
  show k0_pay1 (F := Ideal) (iblk0 V c 0 t) (iblk0 V c 2 t) (iblk0 V c 1 t) (iblk0 V c 3 t) (iblk0 V c 5 t) (iblk0 V c 4 t) j
    = padded true (V c main_v22) (V c main_v23) (V c main_v24) (V c main_arg3) (V c main_arg5) (V c main_v25) (((cfg0.win 6).blk t).view.emb j)
  refine block_eq true (k0_pay1 (F := Ideal)) (fun a d x Wl Wr bl p q => (pay0_apply a d x Wl Wr bl p q).trans (Sage.act_true _).symm)
    (iblk0 V c 0 t) (iblk0 V c 1 t) (iblk0 V c 2 t) (iblk0 V c 3 t) (iblk0 V c 5 t) (iblk0 V c 4 t)
    (V c main_v22) (V c main_v23) (V c main_v24) (V c main_arg3) (V c main_arg5) (V c main_v25) (pt t)
    (rows0 V c t) (rows1 V c t) (rows2 V c t) (whole3 V c t) (whole4 V c t) (whole5 V c t)
    j (((cfg0.win 6).blk t).view.emb j) ?_ ?_
  · show win0_6.index t (0 : Fin 2) * 2048 + 1 * (j 0).val = t.val * 2048 + (j 0).val
    rw [e0]; omega
  · show win0_6.index t (1 : Fin 2) * 128 + 1 * (j 1).val = (j 1).val
    rw [e1]; omega

/-- An index of the output array is in point `t`'s block iff each coordinate is in the block's range on its axis. -/
theorem mem_blk (t : Fin cfg0.N) (i : S100352x128.Idx) :
    i ∈ ((cfg0.win 6).blk t).view.set ↔ ∀ a : Fin 2, win0_6.index t a * S2048x128.size a ≤ (i a).val
      ∧ (i a).val < win0_6.index t a * S2048x128.size a + S2048x128.size a := by
  show i ∈ ((View.whole main_v26).slice (win0_6.rect t)).set ↔ _
  rw [View.set_slice_whole, Rect.mem_set_unit]
  exact Iff.rfl

/-- The 49 tiles cover the output: row `r` lies in the tile of point `r / 2048`. -/
theorem cover (i : S100352x128.Idx) :
    ∃ t : Fin cfg0.N, (cfg0.win 6).flush t = true ∧ i ∈ ((cfg0.win 6).blk t).view.set := by
  have hi0 : (i 0).val < 100352 := (i 0).isLt
  have hi1 : (i 1).val < 128 := (i 1).isLt
  obtain ⟨t, ht⟩ : ∃ t : Fin cfg0.N, t.val = (i 0).val / 2048 :=
    ⟨Fin.cast N_0.symm ⟨(i 0).val / 2048, by omega⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 2048 ≤ (i 0).val ∧ (i 0).val < win0_6.index t (0 : Fin 2) * 2048 + 2048
    rw [e0, ht]; omega
  | ⟨1, _⟩ =>
    show win0_6.index t (1 : Fin 2) * 128 ≤ (i 1).val ∧ (i 1).val < win0_6.index t (1 : Fin 2) * 128 + 128
    rw [e1]; omega

/-- The output array after the region is the padded layer of the operand arrays as the region finds them. -/
theorem final (c : Dev nD) :
    (dat0 V c).arrAt 6 cfg0.N = padded true (V c main_v22) (V c main_v23) (V c main_v24) (V c main_arg3) (V c main_arg5) (V c main_v25) :=
  (dat0 V c).arrAt_eq_of_cover 6 (padded true (V c main_v22) (V c main_v23) (V c main_v24) (V c main_arg3) (V c main_arg5) (V c main_v25)) (fun t _ => flushed_eq V c t) (cover)

end Cert.KernelIdeal.Region0

end
-- ==== Proof.Region1.lean ====
/-
  The second hidden layer's tiled region: the array it leaves.

  The region runs the tile body at 49 grid points. Point t reads rows t * 2048 .. t * 2048 + 2047 of the padded
  summed-neighbour array, of the padded feature array and of the padded count column, both weight matrices and
  the bias row whole, and writes rows t * 2048 .. t * 2048 + 2047 of the output. Each written tile is a block
  of ONE function of the whole operand arrays (the padded layer), and the 49 tiles cover the output's 100352
  rows, so after the region the output array is that function — whatever the buffers held when the region was
  entered (`V`).
-/
import proofs.«170721_j13219909337540_1_alg».proof.Proof.Gen.KernelIdeal.Frame
import proofs.«170721_j13219909337540_1_alg».proof.Proof.Padded

set_option maxRecDepth 16384

noncomputable section

namespace Cert.KernelIdeal.Region1

open Cert.KernelIdeal Cert.KernelIdeal.Gen Cert.KernelIdeal.Tile Cert.KernelIdeal.Padded
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The grid point as a number below 49. -/
abbrev pt (t : Fin cfg1.N) : Fin 49 := Fin.cast N_1 t

/-- The printed index maps, decided over the grid: the row-tiled windows sit at block row `t`, block column 0; the
    matrices and the bias row at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The summed-neighbour tile at point `t`: rows `t * 2048 + p` of its array. -/
theorem rows0 (c : Dev nD) (t : Fin cfg1.N) (p : Fin 2048) (k : Fin 128) :
    (iblk1 V c 0 t : FVec Ideal S2048x128 .f32) (ix2 p k) = V c main_v41 (ix2 (row (pt t) p) k) := by
  obtain ⟨e0, e1, -⟩ := idx_facts t
  show V c main_v41 (((cfg1.win 0).blk t).view.emb (ix2 p k)) = _
  refine congrArg (V c main_v41) (funext fun a => Fin.ext ?_)
  match a with
  | ⟨0, _⟩ => show win1_0.index t (0 : Fin 2) * 2048 + 1 * p.val = t.val * 2048 + p.val; rw [e0]; omega
  | ⟨1, _⟩ => show win1_0.index t (1 : Fin 2) * 128 + 1 * k.val = k.val; rw [e1]; omega

/-- The feature tile at point `t`: rows `t * 2048 + p` of its array. -/
theorem rows1 (c : Dev nD) (t : Fin cfg1.N) (p : Fin 2048) (k : Fin 128) :
    (iblk1 V c 1 t : FVec Ideal S2048x128 .f32) (ix2 p k) = V c main_v42 (ix2 (row (pt t) p) k) := by
  obtain ⟨-, -, e0, e1, -⟩ := idx_facts t
  show V c main_v42 (((cfg1.win 1).blk t).view.emb (ix2 p k)) = _
  refine congrArg (V c main_v42) (funext fun a => Fin.ext ?_)
  match a with
  | ⟨0, _⟩ => show win1_1.index t (0 : Fin 2) * 2048 + 1 * p.val = t.val * 2048 + p.val; rw [e0]; omega
  | ⟨1, _⟩ => show win1_1.index t (1 : Fin 2) * 128 + 1 * k.val = k.val; rw [e1]; omega

/-- The count column's tile at point `t`: rows `t * 2048 + p` of the column. -/
theorem rows2 (c : Dev nD) (t : Fin cfg1.N) (p : Fin 2048) :
    (iblk1 V c 2 t : FVec Ideal S2048x1 .f32) (ix2 p (0 : Fin 1)) = V c main_v43 (ix2 (row (pt t) p) (0 : Fin 1)) := by
  obtain ⟨-, -, -, -, e0, e1, -⟩ := idx_facts t
  show V c main_v43 (((cfg1.win 2).blk t).view.emb (ix2 p (0 : Fin 1))) = _
  refine congrArg (V c main_v43) (funext fun a => Fin.ext ?_)
  match a with
  | ⟨0, _⟩ => show win1_2.index t (0 : Fin 2) * 2048 + 1 * p.val = t.val * 2048 + p.val; rw [e0]; omega
  | ⟨1, _⟩ => show win1_2.index t (1 : Fin 2) * 1 + 1 * 0 = 0; rw [e1]

/-- The first weight matrix is staged whole. -/
theorem whole3 (c : Dev nD) (t : Fin cfg1.N) : (iblk1 V c 3 t : FVec Ideal S128x128 .f32) = V c main_arg6 := by
  obtain ⟨-, -, -, -, -, -, e0, e1, -⟩ := idx_facts t
  funext y
  show V c main_arg6 (((cfg1.win 3).blk t).view.emb y) = _
  refine congrArg (V c main_arg6) (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The bias row is staged whole. -/
theorem whole4 (c : Dev nD) (t : Fin cfg1.N) : (iblk1 V c 4 t : FVec Ideal S1x128 .f32) = V c main_v44 := by
  obtain ⟨-, -, -, -, -, -, -, -, e0, e1, -⟩ := idx_facts t
  funext y
  show V c main_v44 (((cfg1.win 4).blk t).view.emb y) = _
  refine congrArg (V c main_v44) (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- The second weight matrix is staged whole. -/
theorem whole5 (c : Dev nD) (t : Fin cfg1.N) : (iblk1 V c 5 t : FVec Ideal S128x128 .f32) = V c main_arg8 := by
  obtain ⟨-, -, -, -, -, -, -, -, -, -, e0, e1, -⟩ := idx_facts t
  funext y
  show V c main_arg8 (((cfg1.win 5).blk t).view.emb y) = _
  refine congrArg (V c main_arg8) (funext fun a => Fin.ext ?_)
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

/-- What point `t` writes back is block `t` of the padded layer of the operand arrays as the region finds them. -/
theorem flushed_eq (c : Dev nD) (t : Fin cfg1.N) :
    (dat1 V c).flushed 6 t = ((cfg1.win 6).blk t).view.read (Elt Ideal)
      (padded true (V c main_v41) (V c main_v42) (V c main_v43) (V c main_arg6) (V c main_arg8) (V c main_v44)) := by
  show (cfg1.win 6).cut (grid1.coords t) ((dat1 V c).after 6 t) = _
  rw [after1_6]
  unfold out1_6
  rw [View.canon_unit_zero hz]
  simp only [View.ld_unit_zero (S := S2048x128) hz, View.ld_unit_zero (S := S2048x1) hz, View.ld_unit_zero (S := S128x128) hz,
    View.ld_unit_zero (S := S1x128) hz]
  obtain ⟨-, -, -, -, -, -, -, -, -, -, -, -, e0, e1⟩ := idx_facts t
  funext j
  show k1_pay1 (F := Ideal) (iblk1 V c 0 t) (iblk1 V c 2 t) (iblk1 V c 1 t) (iblk1 V c 3 t) (iblk1 V c 5 t) (iblk1 V c 4 t) j
    = padded true (V c main_v41) (V c main_v42) (V c main_v43) (V c main_arg6) (V c main_arg8) (V c main_v44) (((cfg1.win 6).blk t).view.emb j)
  refine block_eq true (k1_pay1 (F := Ideal)) (fun a d x Wl Wr bl p q => (pay1_apply a d x Wl Wr bl p q).trans (Sage.act_true _).symm)
    (iblk1 V c 0 t) (iblk1 V c 1 t) (iblk1 V c 2 t) (iblk1 V c 3 t) (iblk1 V c 5 t) (iblk1 V c 4 t)
    (V c main_v41) (V c main_v42) (V c main_v43) (V c main_arg6) (V c main_arg8) (V c main_v44) (pt t)
    (rows0 V c t) (rows1 V c t) (rows2 V c t) (whole3 V c t) (whole4 V c t) (whole5 V c t)
    j (((cfg1.win 6).blk t).view.emb j) ?_ ?_
  · show win1_6.index t (0 : Fin 2) * 2048 + 1 * (j 0).val = t.val * 2048 + (j 0).val
    rw [e0]; omega
  · show win1_6.index t (1 : Fin 2) * 128 + 1 * (j 1).val = (j 1).val
    rw [e1]; omega

/-- An index of the output array is in point `t`'s block iff each coordinate is in the block's range on its axis. -/
theorem mem_blk (t : Fin cfg1.N) (i : S100352x128.Idx) :
    i ∈ ((cfg1.win 6).blk t).view.set ↔ ∀ a : Fin 2, win1_6.index t a * S2048x128.size a ≤ (i a).val
      ∧ (i a).val < win1_6.index t a * S2048x128.size a + S2048x128.size a := by
  show i ∈ ((View.whole main_v45).slice (win1_6.rect t)).set ↔ _
  rw [View.set_slice_whole, Rect.mem_set_unit]
  exact Iff.rfl

/-- The 49 tiles cover the output: row `r` lies in the tile of point `r / 2048`. -/
theorem cover (i : S100352x128.Idx) :
    ∃ t : Fin cfg1.N, (cfg1.win 6).flush t = true ∧ i ∈ ((cfg1.win 6).blk t).view.set := by
  have hi0 : (i 0).val < 100352 := (i 0).isLt
  have hi1 : (i 1).val < 128 := (i 1).isLt
  obtain ⟨t, ht⟩ : ∃ t : Fin cfg1.N, t.val = (i 0).val / 2048 :=
    ⟨Fin.cast N_1.symm ⟨(i 0).val / 2048, by omega⟩, rfl⟩
  obtain ⟨-, -, -, -, -, -, -, -, -, -, -, -, e0, e1⟩ := idx_facts t
  refine ⟨t, flush1_6 t, ?_⟩
  rw [mem_blk]
  intro a
  match a with
  | ⟨0, _⟩ =>
    show win1_6.index t (0 : Fin 2) * 2048 ≤ (i 0).val ∧ (i 0).val < win1_6.index t (0 : Fin 2) * 2048 + 2048
    rw [e0, ht]; omega
  | ⟨1, _⟩ =>
    show win1_6.index t (1 : Fin 2) * 128 ≤ (i 1).val ∧ (i 1).val < win1_6.index t (1 : Fin 2) * 128 + 128
    rw [e1]; omega

/-- The output array after the region is the padded layer of the operand arrays as the region finds them. -/
theorem final (c : Dev nD) :
    (dat1 V c).arrAt 6 cfg1.N = padded true (V c main_v41) (V c main_v42) (V c main_v43) (V c main_arg6) (V c main_arg8) (V c main_v44) :=
  (dat1 V c).arrAt_eq_of_cover 6 (padded true (V c main_v41) (V c main_v42) (V c main_v43) (V c main_arg6) (V c main_arg8) (V c main_v44)) (fun t _ => flushed_eq V c t) (cover)

end Cert.KernelIdeal.Region1

end
-- ==== Proof.Region2.lean ====
/-
  The last layer's tiled region: the array it leaves.

  The region runs the tile body at 49 grid points. Point t reads rows t * 2048 .. t * 2048 + 2047 of the padded
  summed-neighbour array, of the padded feature array and of the padded count column, both weight matrices and
  the bias row whole, and writes rows t * 2048 .. t * 2048 + 2047 of the output. Each written tile is a block
  of ONE function of the whole operand arrays (the padded layer), and the 49 tiles cover the output's 100352
  rows, so after the region the output array is that function — whatever the buffers held when the region was
  entered (`V`).
-/
import proofs.«170721_j13219909337540_1_alg».proof.Proof.Gen.KernelIdeal.Frame
import proofs.«170721_j13219909337540_1_alg».proof.Proof.Padded

set_option maxRecDepth 16384

noncomputable section

namespace Cert.KernelIdeal.Region2

open Cert.KernelIdeal Cert.KernelIdeal.Gen Cert.KernelIdeal.Tile Cert.KernelIdeal.Padded
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The grid point as a number below 49. -/
abbrev pt (t : Fin cfg2.N) : Fin 49 := Fin.cast N_2 t

/-- The printed index maps, decided over the grid: the row-tiled windows sit at block row `t`, block column 0; the
    matrices and the bias row at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The summed-neighbour tile at point `t`: rows `t * 2048 + p` of its array. -/
theorem rows0 (c : Dev nD) (t : Fin cfg2.N) (p : Fin 2048) (k : Fin 128) :
    (iblk2 V c 0 t : FVec Ideal S2048x128 .f32) (ix2 p k) = V c main_v60 (ix2 (row (pt t) p) k) := by
  obtain ⟨e0, e1, -⟩ := idx_facts t
  show V c main_v60 (((cfg2.win 0).blk t).view.emb (ix2 p k)) = _
  refine congrArg (V c main_v60) (funext fun a => Fin.ext ?_)
  match a with
  | ⟨0, _⟩ => show win2_0.index t (0 : Fin 2) * 2048 + 1 * p.val = t.val * 2048 + p.val; rw [e0]; omega
  | ⟨1, _⟩ => show win2_0.index t (1 : Fin 2) * 128 + 1 * k.val = k.val; rw [e1]; omega

/-- The feature tile at point `t`: rows `t * 2048 + p` of its array. -/
theorem rows1 (c : Dev nD) (t : Fin cfg2.N) (p : Fin 2048) (k : Fin 128) :
    (iblk2 V c 1 t : FVec Ideal S2048x128 .f32) (ix2 p k) = V c main_v61 (ix2 (row (pt t) p) k) := by
  obtain ⟨-, -, e0, e1, -⟩ := idx_facts t
  show V c main_v61 (((cfg2.win 1).blk t).view.emb (ix2 p k)) = _
  refine congrArg (V c main_v61) (funext fun a => Fin.ext ?_)
  match a with
  | ⟨0, _⟩ => show win2_1.index t (0 : Fin 2) * 2048 + 1 * p.val = t.val * 2048 + p.val; rw [e0]; omega
  | ⟨1, _⟩ => show win2_1.index t (1 : Fin 2) * 128 + 1 * k.val = k.val; rw [e1]; omega

/-- The count column's tile at point `t`: rows `t * 2048 + p` of the column. -/
theorem rows2 (c : Dev nD) (t : Fin cfg2.N) (p : Fin 2048) :
    (iblk2 V c 2 t : FVec Ideal S2048x1 .f32) (ix2 p (0 : Fin 1)) = V c main_v62 (ix2 (row (pt t) p) (0 : Fin 1)) := by
  obtain ⟨-, -, -, -, e0, e1, -⟩ := idx_facts t
  show V c main_v62 (((cfg2.win 2).blk t).view.emb (ix2 p (0 : Fin 1))) = _
  refine congrArg (V c main_v62) (funext fun a => Fin.ext ?_)
  match a with
  | ⟨0, _⟩ => show win2_2.index t (0 : Fin 2) * 2048 + 1 * p.val = t.val * 2048 + p.val; rw [e0]; omega
  | ⟨1, _⟩ => show win2_2.index t (1 : Fin 2) * 1 + 1 * 0 = 0; rw [e1]

/-- The first weight matrix is staged whole. -/
theorem whole3 (c : Dev nD) (t : Fin cfg2.N) : (iblk2 V c 3 t : FVec Ideal S128x128 .f32) = V c main_arg9 := by
  obtain ⟨-, -, -, -, -, -, e0, e1, -⟩ := idx_facts t
  funext y
  show V c main_arg9 (((cfg2.win 3).blk t).view.emb y) = _
  refine congrArg (V c main_arg9) (funext fun a => Fin.ext ?_)
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-- The bias row is staged whole. -/
theorem whole4 (c : Dev nD) (t : Fin cfg2.N) : (iblk2 V c 4 t : FVec Ideal S1x128 .f32) = V c main_v63 := by
  obtain ⟨-, -, -, -, -, -, -, -, e0, e1, -⟩ := idx_facts t
  funext y
  show V c main_v63 (((cfg2.win 4).blk t).view.emb y) = _
  refine congrArg (V c main_v63) (funext fun a => Fin.ext ?_)
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- The second weight matrix is staged whole. -/
theorem whole5 (c : Dev nD) (t : Fin cfg2.N) : (iblk2 V c 5 t : FVec Ideal S128x128 .f32) = V c main_arg11 := by
  obtain ⟨-, -, -, -, -, -, -, -, -, -, e0, e1, -⟩ := idx_facts t
  funext y
  show V c main_arg11 (((cfg2.win 5).blk t).view.emb y) = _
  refine congrArg (V c main_arg11) (funext fun a => Fin.ext ?_)
  match a with
  | ⟨0, _⟩ => show win2_5.index t (0 : Fin 2) * 128 + 1 * (y 0).val = (y 0).val; rw [e0]; omega
  | ⟨1, _⟩ => show win2_5.index t (1 : Fin 2) * 128 + 1 * (y 1).val = (y 1).val; rw [e1]; omega

/-- What point `t` writes back is block `t` of the padded layer of the operand arrays as the region finds them. -/
theorem flushed_eq (c : Dev nD) (t : Fin cfg2.N) :
    (dat2 V c).flushed 6 t = ((cfg2.win 6).blk t).view.read (Elt Ideal)
      (padded false (V c main_v60) (V c main_v61) (V c main_v62) (V c main_arg9) (V c main_arg11) (V c main_v63)) := by
  show (cfg2.win 6).cut (grid2.coords t) ((dat2 V c).after 6 t) = _
  rw [after2_6]
  unfold out2_6
  rw [View.canon_unit_zero hz]
  simp only [View.ld_unit_zero (S := S2048x128) hz, View.ld_unit_zero (S := S2048x1) hz, View.ld_unit_zero (S := S128x128) hz,
    View.ld_unit_zero (S := S1x128) hz]
  obtain ⟨-, -, -, -, -, -, -, -, -, -, -, -, e0, e1⟩ := idx_facts t
  funext j
  show k2_pay1 (F := Ideal) (iblk2 V c 0 t) (iblk2 V c 2 t) (iblk2 V c 1 t) (iblk2 V c 3 t) (iblk2 V c 5 t) (iblk2 V c 4 t) j
    = padded false (V c main_v60) (V c main_v61) (V c main_v62) (V c main_arg9) (V c main_arg11) (V c main_v63) (((cfg2.win 6).blk t).view.emb j)
  refine block_eq false (k2_pay1 (F := Ideal)) (fun a d x Wl Wr bl p q => (pay2_apply a d x Wl Wr bl p q).trans (Sage.act_false _).symm)
    (iblk2 V c 0 t) (iblk2 V c 1 t) (iblk2 V c 2 t) (iblk2 V c 3 t) (iblk2 V c 5 t) (iblk2 V c 4 t)
    (V c main_v60) (V c main_v61) (V c main_v62) (V c main_arg9) (V c main_arg11) (V c main_v63) (pt t)
    (rows0 V c t) (rows1 V c t) (rows2 V c t) (whole3 V c t) (whole4 V c t) (whole5 V c t)
    j (((cfg2.win 6).blk t).view.emb j) ?_ ?_
  · show win2_6.index t (0 : Fin 2) * 2048 + 1 * (j 0).val = t.val * 2048 + (j 0).val
    rw [e0]; omega
  · show win2_6.index t (1 : Fin 2) * 128 + 1 * (j 1).val = (j 1).val
    rw [e1]; omega

/-- An index of the output array is in point `t`'s block iff each coordinate is in the block's range on its axis. -/
theorem mem_blk (t : Fin cfg2.N) (i : S100352x128.Idx) :
    i ∈ ((cfg2.win 6).blk t).view.set ↔ ∀ a : Fin 2, win2_6.index t a * S2048x128.size a ≤ (i a).val
      ∧ (i a).val < win2_6.index t a * S2048x128.size a + S2048x128.size a := by
  show i ∈ ((View.whole main_v64).slice (win2_6.rect t)).set ↔ _
  rw [View.set_slice_whole, Rect.mem_set_unit]
  exact Iff.rfl

/-- The 49 tiles cover the output: row `r` lies in the tile of point `r / 2048`. -/
theorem cover (i : S100352x128.Idx) :
    ∃ t : Fin cfg2.N, (cfg2.win 6).flush t = true ∧ i ∈ ((cfg2.win 6).blk t).view.set := by
  have hi0 : (i 0).val < 100352 := (i 0).isLt
  have hi1 : (i 1).val < 128 := (i 1).isLt
  obtain ⟨t, ht⟩ : ∃ t : Fin cfg2.N, t.val = (i 0).val / 2048 :=
    ⟨Fin.cast N_2.symm ⟨(i 0).val / 2048, by omega⟩, rfl⟩
  obtain ⟨-, -, -, -, -, -, -, -, -, -, -, -, e0, e1⟩ := idx_facts t
  refine ⟨t, flush2_6 t, ?_⟩
  rw [mem_blk]
  intro a
  match a with
  | ⟨0, _⟩ =>
    show win2_6.index t (0 : Fin 2) * 2048 ≤ (i 0).val ∧ (i 0).val < win2_6.index t (0 : Fin 2) * 2048 + 2048
    rw [e0, ht]; omega
  | ⟨1, _⟩ =>
    show win2_6.index t (1 : Fin 2) * 128 ≤ (i 1).val ∧ (i 1).val < win2_6.index t (1 : Fin 2) * 128 + 128
    rw [e1]; omega

/-- The output array after the region is the padded layer of the operand arrays as the region finds them. -/
theorem final (c : Dev nD) :
    (dat2 V c).arrAt 6 cfg2.N = padded false (V c main_v60) (V c main_v61) (V c main_v62) (V c main_arg9) (V c main_arg11) (V c main_v63) :=
  (dat2 V c).arrAt_eq_of_cover 6 (padded false (V c main_v60) (V c main_v61) (V c main_v62) (V c main_arg9) (V c main_arg11) (V c main_v63)) (fun t _ => flushed_eq V c t) (cover)

end Cert.KernelIdeal.Region2

end
-- ==== Proof.ReadsL0.lean ====
/-
  What the first stretch (28 operations): the edges' rows, the counts and the first layer's neighbour sum leave(s) in the buffers read later, from ANY contents `V` before.
  Each buffer of the program is written once; read back through the operations that follow, a written buffer holds
  its operation's value of its operands, and a buffer the stretch does not write holds what it held before.
-/
import proofs.«170721_j13219909337540_1_alg».proof.Proof.Gen.KernelIdeal.Frame
import proofs.«170721_j13219909337540_1_alg».proof.Proof.KLayer

set_option maxRecDepth 16384

noncomputable section

namespace Cert.KernelIdeal.Reads.L0

open Cert.KernelIdeal Cert.KernelIdeal.Gen Cert.KernelIdeal.Layer Cert.KernelIdeal.Padded
open Idealize.ShloMosaic Idealize.ShloMosaic.TcCoe Idealize.ShloMosaic.StableHlo Idealize.SL.Sem

variable (V : Valuation τ sig (Elt Ideal))

set_option maxHeartbeats 8000000 in
/-- The source rows. -/
theorem v1 :
    StableHlo.after hostOps0 V (Proc.devRef .tc main_v1)
      = src (V (Proc.devRef .tc main_arg1) : IVec S2x1600000 32) := by
  after_results <;> unfold src <;> rfl

set_option maxHeartbeats 8000000 in
/-- The destination rows. -/
theorem v3 :
    StableHlo.after hostOps0 V (Proc.devRef .tc main_v3)
      = dst (V (Proc.devRef .tc main_arg1) : IVec S2x1600000 32) := by
  after_results <;> unfold dst <;> rfl

set_option maxHeartbeats 8000000 in
/-- The incoming-edge counts as a column. -/
theorem v8 :
    StableHlo.after hostOps0 V (Proc.devRef .tc main_v8)
      = degCol (V (Proc.devRef .tc main_arg1) : IVec S2x1600000 32) := by
  after_results <;> unfold degCol deg dst <;> rfl

set_option maxHeartbeats 8000000 in
/-- The neighbour sum of the node features. -/
theorem v21 :
    StableHlo.after hostOps0 V (Proc.devRef .tc main_v21)
      = agg (V (Proc.devRef .tc main_arg1) : IVec S2x1600000 32) (V (Proc.devRef .tc main_arg2) : FVec Ideal S1600000 .f32) (V (Proc.devRef .tc main_arg0) : FVec Ideal S100000x128 .f32) := by
  after_results <;> unfold agg aggOf src dst <;> rfl

set_option maxHeartbeats 8000000 in
/-- The integer zero the padding value is made of. -/
theorem c_3 :
    StableHlo.after hostOps0 V (Proc.devRef .tc main_c_3)
      = constantI S_ 32 0#32 := by
  after_results <;> rfl

set_option maxHeartbeats 8000000 in
/-- The stretch does not write this buffer. -/
theorem keep_arg0 :
    StableHlo.after hostOps0 V (Proc.devRef .tc main_arg0)
      = V (Proc.devRef .tc main_arg0) := by
  after_results <;> rfl

set_option maxHeartbeats 8000000 in
/-- The stretch does not write this buffer. -/
theorem keep_arg2 :
    StableHlo.after hostOps0 V (Proc.devRef .tc main_arg2)
      = V (Proc.devRef .tc main_arg2) := by
  after_results <;> rfl

set_option maxHeartbeats 8000000 in
/-- The stretch does not write this buffer. -/
theorem keep_arg3 :
    StableHlo.after hostOps0 V (Proc.devRef .tc main_arg3)
      = V (Proc.devRef .tc main_arg3) := by
  after_results <;> rfl

set_option maxHeartbeats 8000000 in
/-- The stretch does not write this buffer. -/
theorem keep_arg4 :
    StableHlo.after hostOps0 V (Proc.devRef .tc main_arg4)
      = V (Proc.devRef .tc main_arg4) := by
  after_results <;> rfl

set_option maxHeartbeats 8000000 in
/-- The stretch does not write this buffer. -/
theorem keep_arg5 :
    StableHlo.after hostOps0 V (Proc.devRef .tc main_arg5)
      = V (Proc.devRef .tc main_arg5) := by
  after_results <;> rfl

set_option maxHeartbeats 8000000 in
/-- The stretch does not write this buffer. -/
theorem keep_arg6 :
    StableHlo.after hostOps0 V (Proc.devRef .tc main_arg6)
      = V (Proc.devRef .tc main_arg6) := by
  after_results <;> rfl

set_option maxHeartbeats 8000000 in
/-- The stretch does not write this buffer. -/
theorem keep_arg7 :
    StableHlo.after hostOps0 V (Proc.devRef .tc main_arg7)
      = V (Proc.devRef .tc main_arg7) := by
  after_results <;> rfl

set_option maxHeartbeats 8000000 in
/-- The stretch does not write this buffer. -/
theorem keep_arg8 :
    StableHlo.after hostOps0 V (Proc.devRef .tc main_arg8)
      = V (Proc.devRef .tc main_arg8) := by
  after_results <;> rfl

set_option maxHeartbeats 8000000 in
/-- The stretch does not write this buffer. -/
theorem keep_arg9 :
    StableHlo.after hostOps0 V (Proc.devRef .tc main_arg9)
      = V (Proc.devRef .tc main_arg9) := by
  after_results <;> rfl

set_option maxHeartbeats 8000000 in
/-- The stretch does not write this buffer. -/
theorem keep_arg10 :
    StableHlo.after hostOps0 V (Proc.devRef .tc main_arg10)
      = V (Proc.devRef .tc main_arg10) := by
  after_results <;> rfl

set_option maxHeartbeats 8000000 in
/-- The stretch does not write this buffer. -/
theorem keep_arg11 :
    StableHlo.after hostOps0 V (Proc.devRef .tc main_arg11)
      = V (Proc.devRef .tc main_arg11) := by
  after_results <;> rfl

end Cert.KernelIdeal.Reads.L0

end
-- ==== Proof.ReadsT0.lean ====
/-
  What the stretches that pad the first region's operands and lay the bias out as a row (9 operations) leave(s) in the buffers read later, from ANY contents `V` before.
  Each buffer of the program is written once; read back through the operations that follow, a written buffer holds
  its operation's value of its operands, and a buffer the stretch does not write holds what it held before.
-/
import proofs.«170721_j13219909337540_1_alg».proof.Proof.Gen.KernelIdeal.Frame
import proofs.«170721_j13219909337540_1_alg».proof.Proof.KLayer

set_option maxRecDepth 16384

noncomputable section

namespace Cert.KernelIdeal.Reads.T0

open Cert.KernelIdeal Cert.KernelIdeal.Gen Cert.KernelIdeal.Layer Cert.KernelIdeal.Padded
open Idealize.ShloMosaic Idealize.ShloMosaic.TcCoe Idealize.ShloMosaic.StableHlo Idealize.SL.Sem

variable (V : Valuation τ sig (Elt Ideal))

set_option maxHeartbeats 8000000 in
/-- The neighbour sum, padded. -/
theorem v22 :
    StableHlo.after hostOps0_6 (StableHlo.after hostOps0_5 (StableHlo.after hostOps0_4 (StableHlo.after hostOps0_3
      (StableHlo.after hostOps0_2 (StableHlo.after hostOps0_1 V))))) (Proc.devRef .tc main_v22)
      = pad S100352x128 ![0, 0] ![352, 0] ![0, 0] (V (Proc.devRef .tc main_v21) : FVec Ideal S100000x128 .f32) (sitofp (F := Ideal) .f32 (V (Proc.devRef .tc main_c_3) : IVec S_ 32)) pads_S100000x128_S100352x128_03520_000 h_S_ := by
  after_results <;> rfl

set_option maxHeartbeats 8000000 in
/-- The node features, padded. -/
theorem v23 :
    StableHlo.after hostOps0_6 (StableHlo.after hostOps0_5 (StableHlo.after hostOps0_4 (StableHlo.after hostOps0_3
      (StableHlo.after hostOps0_2 (StableHlo.after hostOps0_1 V))))) (Proc.devRef .tc main_v23)
      = pad S100352x128 ![0, 0] ![352, 0] ![0, 0] (V (Proc.devRef .tc main_arg0) : FVec Ideal S100000x128 .f32) (sitofp (F := Ideal) .f32 (constantI S_ 32 0#32)) pads_S100000x128_S100352x128_03520_000 h_S_ := by
  after_results <;> rfl

set_option maxHeartbeats 8000000 in
/-- The count column, padded with ones. -/
theorem v24 :
    StableHlo.after hostOps0_6 (StableHlo.after hostOps0_5 (StableHlo.after hostOps0_4 (StableHlo.after hostOps0_3
      (StableHlo.after hostOps0_2 (StableHlo.after hostOps0_1 V))))) (Proc.devRef .tc main_v24)
      = pad S100352x1 ![0, 0] ![352, 0] ![0, 0] (V (Proc.devRef .tc main_v8) : FVec Ideal S100000x1 .f32) (constant (F := Ideal) S_ .f32 0x3F800000#32) pads_S100000x1_S100352x1_03520_000 h_S_ := by
  after_results <;> rfl

set_option maxHeartbeats 8000000 in
/-- The bias as a row. -/
theorem v25 :
    StableHlo.after hostOps0_6 (StableHlo.after hostOps0_5 (StableHlo.after hostOps0_4 (StableHlo.after hostOps0_3
      (StableHlo.after hostOps0_2 (StableHlo.after hostOps0_1 V))))) (Proc.devRef .tc main_v25)
      = shapeCast S1x128 (V (Proc.devRef .tc main_arg4) : FVec Ideal S128 .f32) shapeCasts_S128_S1x128 := by
  after_results <;> rfl

set_option maxHeartbeats 8000000 in
/-- The stretch does not write this buffer. -/
theorem keep_arg3 :
    StableHlo.after hostOps0_6 (StableHlo.after hostOps0_5 (StableHlo.after hostOps0_4 (StableHlo.after hostOps0_3
      (StableHlo.after hostOps0_2 (StableHlo.after hostOps0_1 V))))) (Proc.devRef .tc main_arg3)
      = V (Proc.devRef .tc main_arg3) := by
  after_results <;> rfl

set_option maxHeartbeats 8000000 in
/-- The stretch does not write this buffer. -/
theorem keep_arg5 :
    StableHlo.after hostOps0_6 (StableHlo.after hostOps0_5 (StableHlo.after hostOps0_4 (StableHlo.after hostOps0_3
      (StableHlo.after hostOps0_2 (StableHlo.after hostOps0_1 V))))) (Proc.devRef .tc main_arg5)
      = V (Proc.devRef .tc main_arg5) := by
  after_results <;> rfl

set_option maxHeartbeats 8000000 in
/-- The stretch does not write this buffer. -/
theorem keep_v1 :
    StableHlo.after hostOps0_6 (StableHlo.after hostOps0_5 (StableHlo.after hostOps0_4 (StableHlo.after hostOps0_3
      (StableHlo.after hostOps0_2 (StableHlo.after hostOps0_1 V))))) (Proc.devRef .tc main_v1)
      = V (Proc.devRef .tc main_v1) := by
  after_results <;> rfl

set_option maxHeartbeats 8000000 in
/-- The stretch does not write this buffer. -/
theorem keep_v3 :
    StableHlo.after hostOps0_6 (StableHlo.after hostOps0_5 (StableHlo.after hostOps0_4 (StableHlo.after hostOps0_3
      (StableHlo.after hostOps0_2 (StableHlo.after hostOps0_1 V))))) (Proc.devRef .tc main_v3)
      = V (Proc.devRef .tc main_v3) := by
  after_results <;> rfl

set_option maxHeartbeats 8000000 in
/-- The stretch does not write this buffer. -/
theorem keep_v8 :
    StableHlo.after hostOps0_6 (StableHlo.after hostOps0_5 (StableHlo.after hostOps0_4 (StableHlo.after hostOps0_3
      (StableHlo.after hostOps0_2 (StableHlo.after hostOps0_1 V))))) (Proc.devRef .tc main_v8)
      = V (Proc.devRef .tc main_v8) := by
  after_results <;> rfl

set_option maxHeartbeats 8000000 in
/-- The stretch does not write this buffer. -/
theorem keep_arg2 :
    StableHlo.after hostOps0_6 (StableHlo.after hostOps0_5 (StableHlo.after hostOps0_4 (StableHlo.after hostOps0_3
      (StableHlo.after hostOps0_2 (StableHlo.after hostOps0_1 V))))) (Proc.devRef .tc main_arg2)
      = V (Proc.devRef .tc main_arg2) := by
  after_results <;> rfl

set_option maxHeartbeats 8000000 in
/-- The stretch does not write this buffer. -/
theorem keep_arg6 :
    StableHlo.after hostOps0_6 (StableHlo.after hostOps0_5 (StableHlo.after hostOps0_4 (StableHlo.after hostOps0_3
      (StableHlo.after hostOps0_2 (StableHlo.after hostOps0_1 V))))) (Proc.devRef .tc main_arg6)
      = V (Proc.devRef .tc main_arg6) := by
  after_results <;> rfl

set_option maxHeartbeats 8000000 in
/-- The stretch does not write this buffer. -/
theorem keep_arg7 :
    StableHlo.after hostOps0_6 (StableHlo.after hostOps0_5 (StableHlo.after hostOps0_4 (StableHlo.after hostOps0_3
      (StableHlo.after hostOps0_2 (StableHlo.after hostOps0_1 V))))) (Proc.devRef .tc main_arg7)
      = V (Proc.devRef .tc main_arg7) := by
  after_results <;> rfl

set_option maxHeartbeats 8000000 in
/-- The stretch does not write this buffer. -/
theorem keep_arg8 :
    StableHlo.after hostOps0_6 (StableHlo.after hostOps0_5 (StableHlo.after hostOps0_4 (StableHlo.after hostOps0_3
      (StableHlo.after hostOps0_2 (StableHlo.after hostOps0_1 V))))) (Proc.devRef .tc main_arg8)
      = V (Proc.devRef .tc main_arg8) := by
  after_results <;> rfl

set_option maxHeartbeats 8000000 in
/-- The stretch does not write this buffer. -/
theorem keep_arg9 :
    StableHlo.after hostOps0_6 (StableHlo.after hostOps0_5 (StableHlo.after hostOps0_4 (StableHlo.after hostOps0_3
      (StableHlo.after hostOps0_2 (StableHlo.after hostOps0_1 V))))) (Proc.devRef .tc main_arg9)
      = V (Proc.devRef .tc main_arg9) := by
  after_results <;> rfl

set_option maxHeartbeats 8000000 in
/-- The stretch does not write this buffer. -/
theorem keep_arg10 :
    StableHlo.after hostOps0_6 (StableHlo.after hostOps0_5 (StableHlo.after hostOps0_4 (StableHlo.after hostOps0_3
      (StableHlo.after hostOps0_2 (StableHlo.after hostOps0_1 V))))) (Proc.devRef .tc main_arg10)
      = V (Proc.devRef .tc main_arg10) := by
  after_results <;> rfl

set_option maxHeartbeats 8000000 in
/-- The stretch does not write this buffer. -/
theorem keep_arg11 :
    StableHlo.after hostOps0_6 (StableHlo.after hostOps0_5 (StableHlo.after hostOps0_4 (StableHlo.after hostOps0_3
      (StableHlo.after hostOps0_2 (StableHlo.after hostOps0_1 V))))) (Proc.devRef .tc main_arg11)
      = V (Proc.devRef .tc main_arg11) := by
  after_results <;> rfl

end Cert.KernelIdeal.Reads.T0

end
-- ==== Proof.ReadsL1.lean ====
/-
  What the stretch after the first region (18 operations): the first layer's result cut back, and its neighbour sum leave(s) in the buffers read later, from ANY contents `V` before.
  Each buffer of the program is written once; read back through the operations that follow, a written buffer holds
  its operation's value of its operands, and a buffer the stretch does not write holds what it held before.
-/
import proofs.«170721_j13219909337540_1_alg».proof.Proof.Gen.KernelIdeal.Frame
import proofs.«170721_j13219909337540_1_alg».proof.Proof.KLayer

set_option maxRecDepth 16384

noncomputable section

namespace Cert.KernelIdeal.Reads.L1

open Cert.KernelIdeal Cert.KernelIdeal.Gen Cert.KernelIdeal.Layer Cert.KernelIdeal.Padded
open Idealize.ShloMosaic Idealize.ShloMosaic.TcCoe Idealize.ShloMosaic.StableHlo Idealize.SL.Sem

variable (V : Valuation τ sig (Elt Ideal))

set_option maxHeartbeats 8000000 in
/-- The first layer's result: the region's array cut back to the nodes. -/
theorem v27 :
    StableHlo.after hostOps1 V (Proc.devRef .tc main_v27)
      = extractStridedSlice S100000x128 ![0, 0] (V (Proc.devRef .tc main_v26) : FVec Ideal S100352x128 .f32) slices_S100352x128_S100000x128_0_0 := by
  after_results <;> rfl

set_option maxHeartbeats 8000000 in
/-- The neighbour sum of the first layer's result. -/
theorem v40 :
    StableHlo.after hostOps1 V (Proc.devRef .tc main_v40)
      = aggOf (V (Proc.devRef .tc main_v1) : IVec S1600000 32) (V (Proc.devRef .tc main_v3) : IVec S1600000 32) (V (Proc.devRef .tc main_arg2) : FVec Ideal S1600000 .f32) (extractStridedSlice S100000x128 ![0, 0] (V (Proc.devRef .tc main_v26) : FVec Ideal S100352x128 .f32) slices_S100352x128_S100000x128_0_0) := by
  after_results <;> unfold aggOf <;> rfl

set_option maxHeartbeats 8000000 in
/-- The integer zero the padding value is made of. -/
theorem c_9 :
    StableHlo.after hostOps1 V (Proc.devRef .tc main_c_9)
      = constantI S_ 32 0#32 := by
  after_results <;> rfl

set_option maxHeartbeats 8000000 in
/-- The stretch does not write this buffer. -/
theorem keep_v8 :
    StableHlo.after hostOps1 V (Proc.devRef .tc main_v8)
      = V (Proc.devRef .tc main_v8) := by
  after_results <;> rfl

set_option maxHeartbeats 8000000 in
/-- The stretch does not write this buffer. -/
theorem keep_v1 :
    StableHlo.after hostOps1 V (Proc.devRef .tc main_v1)
      = V (Proc.devRef .tc main_v1) := by
  after_results <;> rfl

set_option maxHeartbeats 8000000 in
/-- The stretch does not write this buffer. -/
theorem keep_v3 :
    StableHlo.after hostOps1 V (Proc.devRef .tc main_v3)
      = V (Proc.devRef .tc main_v3) := by
  after_results <;> rfl

set_option maxHeartbeats 8000000 in
/-- The stretch does not write this buffer. -/
theorem keep_arg2 :
    StableHlo.after hostOps1 V (Proc.devRef .tc main_arg2)
      = V (Proc.devRef .tc main_arg2) := by
  after_results <;> rfl

set_option maxHeartbeats 8000000 in
/-- The stretch does not write this buffer. -/
theorem keep_arg6 :
    StableHlo.after hostOps1 V (Proc.devRef .tc main_arg6)
      = V (Proc.devRef .tc main_arg6) := by
  after_results <;> rfl

set_option maxHeartbeats 8000000 in
/-- The stretch does not write this buffer. -/
theorem keep_arg7 :
    StableHlo.after hostOps1 V (Proc.devRef .tc main_arg7)
      = V (Proc.devRef .tc main_arg7) := by
  after_results <;> rfl

set_option maxHeartbeats 8000000 in
/-- The stretch does not write this buffer. -/
theorem keep_arg8 :
    StableHlo.after hostOps1 V (Proc.devRef .tc main_arg8)
      = V (Proc.devRef .tc main_arg8) := by
  after_results <;> rfl

set_option maxHeartbeats 8000000 in
/-- The stretch does not write this buffer. -/
theorem keep_arg9 :
    StableHlo.after hostOps1 V (Proc.devRef .tc main_arg9)
      = V (Proc.devRef .tc main_arg9) := by
  after_results <;> rfl

set_option maxHeartbeats 8000000 in
/-- The stretch does not write this buffer. -/
theorem keep_arg10 :
    StableHlo.after hostOps1 V (Proc.devRef .tc main_arg10)
      = V (Proc.devRef .tc main_arg10) := by
  after_results <;> rfl

set_option maxHeartbeats 8000000 in
/-- The stretch does not write this buffer. -/
theorem keep_arg11 :
    StableHlo.after hostOps1 V (Proc.devRef .tc main_arg11)
      = V (Proc.devRef .tc main_arg11) := by
  after_results <;> rfl

end Cert.KernelIdeal.Reads.L1

end
-- ==== Proof.ReadsT1.lean ====
/-
  What the stretches that pad the second region's operands and lay the bias out as a row (9 operations) leave(s) in the buffers read later, from ANY contents `V` before.
  Each buffer of the program is written once; read back through the operations that follow, a written buffer holds
  its operation's value of its operands, and a buffer the stretch does not write holds what it held before.
-/
import proofs.«170721_j13219909337540_1_alg».proof.Proof.Gen.KernelIdeal.Frame
import proofs.«170721_j13219909337540_1_alg».proof.Proof.KLayer

set_option maxRecDepth 16384

noncomputable section

namespace Cert.KernelIdeal.Reads.T1

open Cert.KernelIdeal Cert.KernelIdeal.Gen Cert.KernelIdeal.Layer Cert.KernelIdeal.Padded
open Idealize.ShloMosaic Idealize.ShloMosaic.TcCoe Idealize.ShloMosaic.StableHlo Idealize.SL.Sem

variable (V : Valuation τ sig (Elt Ideal))

set_option maxHeartbeats 8000000 in
/-- The neighbour sum, padded. -/
theorem v41 :
    StableHlo.after hostOps1_6 (StableHlo.after hostOps1_5 (StableHlo.after hostOps1_4 (StableHlo.after hostOps1_3
      (StableHlo.after hostOps1_2 (StableHlo.after hostOps1_1 V))))) (Proc.devRef .tc main_v41)
      = pad S100352x128 ![0, 0] ![352, 0] ![0, 0] (V (Proc.devRef .tc main_v40) : FVec Ideal S100000x128 .f32) (sitofp (F := Ideal) .f32 (V (Proc.devRef .tc main_c_9) : IVec S_ 32)) pads_S100000x128_S100352x128_03520_000 h_S_ := by
  after_results <;> rfl

set_option maxHeartbeats 8000000 in
/-- The layer's input, padded. -/
theorem v42 :
    StableHlo.after hostOps1_6 (StableHlo.after hostOps1_5 (StableHlo.after hostOps1_4 (StableHlo.after hostOps1_3
      (StableHlo.after hostOps1_2 (StableHlo.after hostOps1_1 V))))) (Proc.devRef .tc main_v42)
      = pad S100352x128 ![0, 0] ![352, 0] ![0, 0] (V (Proc.devRef .tc main_v27) : FVec Ideal S100000x128 .f32) (sitofp (F := Ideal) .f32 (constantI S_ 32 0#32)) pads_S100000x128_S100352x128_03520_000 h_S_ := by
  after_results <;> rfl

set_option maxHeartbeats 8000000 in
/-- The count column, padded with ones. -/
theorem v43 :
    StableHlo.after hostOps1_6 (StableHlo.after hostOps1_5 (StableHlo.after hostOps1_4 (StableHlo.after hostOps1_3
      (StableHlo.after hostOps1_2 (StableHlo.after hostOps1_1 V))))) (Proc.devRef .tc main_v43)
      = pad S100352x1 ![0, 0] ![352, 0] ![0, 0] (V (Proc.devRef .tc main_v8) : FVec Ideal S100000x1 .f32) (constant (F := Ideal) S_ .f32 0x3F800000#32) pads_S100000x1_S100352x1_03520_000 h_S_ := by
  after_results <;> rfl

set_option maxHeartbeats 8000000 in
/-- The bias as a row. -/
theorem v44 :
    StableHlo.after hostOps1_6 (StableHlo.after hostOps1_5 (StableHlo.after hostOps1_4 (StableHlo.after hostOps1_3
      (StableHlo.after hostOps1_2 (StableHlo.after hostOps1_1 V))))) (Proc.devRef .tc main_v44)
      = shapeCast S1x128 (V (Proc.devRef .tc main_arg7) : FVec Ideal S128 .f32) shapeCasts_S128_S1x128 := by
  after_results <;> rfl

set_option maxHeartbeats 8000000 in
/-- The stretch does not write this buffer. -/
theorem keep_arg6 :
    StableHlo.after hostOps1_6 (StableHlo.after hostOps1_5 (StableHlo.after hostOps1_4 (StableHlo.after hostOps1_3
      (StableHlo.after hostOps1_2 (StableHlo.after hostOps1_1 V))))) (Proc.devRef .tc main_arg6)
      = V (Proc.devRef .tc main_arg6) := by
  after_results <;> rfl

set_option maxHeartbeats 8000000 in
/-- The stretch does not write this buffer. -/
theorem keep_arg8 :
    StableHlo.after hostOps1_6 (StableHlo.after hostOps1_5 (StableHlo.after hostOps1_4 (StableHlo.after hostOps1_3
      (StableHlo.after hostOps1_2 (StableHlo.after hostOps1_1 V))))) (Proc.devRef .tc main_arg8)
      = V (Proc.devRef .tc main_arg8) := by
  after_results <;> rfl

set_option maxHeartbeats 8000000 in
/-- The stretch does not write this buffer. -/
theorem keep_v1 :
    StableHlo.after hostOps1_6 (StableHlo.after hostOps1_5 (StableHlo.after hostOps1_4 (StableHlo.after hostOps1_3
      (StableHlo.after hostOps1_2 (StableHlo.after hostOps1_1 V))))) (Proc.devRef .tc main_v1)
      = V (Proc.devRef .tc main_v1) := by
  after_results <;> rfl

set_option maxHeartbeats 8000000 in
/-- The stretch does not write this buffer. -/
theorem keep_v3 :
    StableHlo.after hostOps1_6 (StableHlo.after hostOps1_5 (StableHlo.after hostOps1_4 (StableHlo.after hostOps1_3
      (StableHlo.after hostOps1_2 (StableHlo.after hostOps1_1 V))))) (Proc.devRef .tc main_v3)
      = V (Proc.devRef .tc main_v3) := by
  after_results <;> rfl

set_option maxHeartbeats 8000000 in
/-- The stretch does not write this buffer. -/
theorem keep_v8 :
    StableHlo.after hostOps1_6 (StableHlo.after hostOps1_5 (StableHlo.after hostOps1_4 (StableHlo.after hostOps1_3
      (StableHlo.after hostOps1_2 (StableHlo.after hostOps1_1 V))))) (Proc.devRef .tc main_v8)
      = V (Proc.devRef .tc main_v8) := by
  after_results <;> rfl

set_option maxHeartbeats 8000000 in
/-- The stretch does not write this buffer. -/
theorem keep_arg2 :
    StableHlo.after hostOps1_6 (StableHlo.after hostOps1_5 (StableHlo.after hostOps1_4 (StableHlo.after hostOps1_3
      (StableHlo.after hostOps1_2 (StableHlo.after hostOps1_1 V))))) (Proc.devRef .tc main_arg2)
      = V (Proc.devRef .tc main_arg2) := by
  after_results <;> rfl

set_option maxHeartbeats 8000000 in
/-- The stretch does not write this buffer. -/
theorem keep_arg9 :
    StableHlo.after hostOps1_6 (StableHlo.after hostOps1_5 (StableHlo.after hostOps1_4 (StableHlo.after hostOps1_3
      (StableHlo.after hostOps1_2 (StableHlo.after hostOps1_1 V))))) (Proc.devRef .tc main_arg9)
      = V (Proc.devRef .tc main_arg9) := by
  after_results <;> rfl

set_option maxHeartbeats 8000000 in
/-- The stretch does not write this buffer. -/
theorem keep_arg10 :
    StableHlo.after hostOps1_6 (StableHlo.after hostOps1_5 (StableHlo.after hostOps1_4 (StableHlo.after hostOps1_3
      (StableHlo.after hostOps1_2 (StableHlo.after hostOps1_1 V))))) (Proc.devRef .tc main_arg10)
      = V (Proc.devRef .tc main_arg10) := by
  after_results <;> rfl

set_option maxHeartbeats 8000000 in
/-- The stretch does not write this buffer. -/
theorem keep_arg11 :
    StableHlo.after hostOps1_6 (StableHlo.after hostOps1_5 (StableHlo.after hostOps1_4 (StableHlo.after hostOps1_3
      (StableHlo.after hostOps1_2 (StableHlo.after hostOps1_1 V))))) (Proc.devRef .tc main_arg11)
      = V (Proc.devRef .tc main_arg11) := by
  after_results <;> rfl

end Cert.KernelIdeal.Reads.T1

end
-- ==== Proof.ReadsL2.lean ====
/-
  What the stretch after the second region (18 operations): the second layer's result cut back, and its neighbour sum leave(s) in the buffers read later, from ANY contents `V` before.
  Each buffer of the program is written once; read back through the operations that follow, a written buffer holds
  its operation's value of its operands, and a buffer the stretch does not write holds what it held before.
-/
import proofs.«170721_j13219909337540_1_alg».proof.Proof.Gen.KernelIdeal.Frame
import proofs.«170721_j13219909337540_1_alg».proof.Proof.KLayer

set_option maxRecDepth 16384

noncomputable section

namespace Cert.KernelIdeal.Reads.L2

open Cert.KernelIdeal Cert.KernelIdeal.Gen Cert.KernelIdeal.Layer Cert.KernelIdeal.Padded
open Idealize.ShloMosaic Idealize.ShloMosaic.TcCoe Idealize.ShloMosaic.StableHlo Idealize.SL.Sem

variable (V : Valuation τ sig (Elt Ideal))

set_option maxHeartbeats 8000000 in
/-- The second layer's result: the region's array cut back to the nodes. -/
theorem v46 :
    StableHlo.after hostOps2 V (Proc.devRef .tc main_v46)
      = extractStridedSlice S100000x128 ![0, 0] (V (Proc.devRef .tc main_v45) : FVec Ideal S100352x128 .f32) slices_S100352x128_S100000x128_0_0 := by
  after_results <;> rfl

set_option maxHeartbeats 8000000 in
/-- The neighbour sum of the second layer's result. -/
theorem v59 :
    StableHlo.after hostOps2 V (Proc.devRef .tc main_v59)
      = aggOf (V (Proc.devRef .tc main_v1) : IVec S1600000 32) (V (Proc.devRef .tc main_v3) : IVec S1600000 32) (V (Proc.devRef .tc main_arg2) : FVec Ideal S1600000 .f32) (extractStridedSlice S100000x128 ![0, 0] (V (Proc.devRef .tc main_v45) : FVec Ideal S100352x128 .f32) slices_S100352x128_S100000x128_0_0) := by
  after_results <;> unfold aggOf <;> rfl

set_option maxHeartbeats 8000000 in
/-- The integer zero the padding value is made of. -/
theorem c_15 :
    StableHlo.after hostOps2 V (Proc.devRef .tc main_c_15)
      = constantI S_ 32 0#32 := by
  after_results <;> rfl

set_option maxHeartbeats 8000000 in
/-- The stretch does not write this buffer. -/
theorem keep_v8 :
    StableHlo.after hostOps2 V (Proc.devRef .tc main_v8)
      = V (Proc.devRef .tc main_v8) := by
  after_results <;> rfl

set_option maxHeartbeats 8000000 in
/-- The stretch does not write this buffer. -/
theorem keep_arg9 :
    StableHlo.after hostOps2 V (Proc.devRef .tc main_arg9)
      = V (Proc.devRef .tc main_arg9) := by
  after_results <;> rfl

set_option maxHeartbeats 8000000 in
/-- The stretch does not write this buffer. -/
theorem keep_arg10 :
    StableHlo.after hostOps2 V (Proc.devRef .tc main_arg10)
      = V (Proc.devRef .tc main_arg10) := by
  after_results <;> rfl

set_option maxHeartbeats 8000000 in
/-- The stretch does not write this buffer. -/
theorem keep_arg11 :
    StableHlo.after hostOps2 V (Proc.devRef .tc main_arg11)
      = V (Proc.devRef .tc main_arg11) := by
  after_results <;> rfl

end Cert.KernelIdeal.Reads.L2

end
-- ==== Proof.ReadsT2L3.lean ====
/-
  What the stretches that pad the third region's operands (9 operations), and the last cut leave(s) in the buffers read later, from ANY contents `V` before.
  Each buffer of the program is written once; read back through the operations that follow, a written buffer holds
  its operation's value of its operands, and a buffer the stretch does not write holds what it held before.
-/
import proofs.«170721_j13219909337540_1_alg».proof.Proof.Gen.KernelIdeal.Frame
import proofs.«170721_j13219909337540_1_alg».proof.Proof.KLayer

set_option maxRecDepth 16384

noncomputable section

namespace Cert.KernelIdeal.Reads.T2L3

open Cert.KernelIdeal Cert.KernelIdeal.Gen Cert.KernelIdeal.Layer Cert.KernelIdeal.Padded
open Idealize.ShloMosaic Idealize.ShloMosaic.TcCoe Idealize.ShloMosaic.StableHlo Idealize.SL.Sem

variable (V : Valuation τ sig (Elt Ideal))

set_option maxHeartbeats 8000000 in
/-- The neighbour sum, padded. -/
theorem v60 :
    StableHlo.after hostOps2_6 (StableHlo.after hostOps2_5 (StableHlo.after hostOps2_4 (StableHlo.after hostOps2_3
      (StableHlo.after hostOps2_2 (StableHlo.after hostOps2_1 V))))) (Proc.devRef .tc main_v60)
      = pad S100352x128 ![0, 0] ![352, 0] ![0, 0] (V (Proc.devRef .tc main_v59) : FVec Ideal S100000x128 .f32) (sitofp (F := Ideal) .f32 (V (Proc.devRef .tc main_c_15) : IVec S_ 32)) pads_S100000x128_S100352x128_03520_000 h_S_ := by
  after_results <;> rfl

set_option maxHeartbeats 8000000 in
/-- The layer's input, padded. -/
theorem v61 :
    StableHlo.after hostOps2_6 (StableHlo.after hostOps2_5 (StableHlo.after hostOps2_4 (StableHlo.after hostOps2_3
      (StableHlo.after hostOps2_2 (StableHlo.after hostOps2_1 V))))) (Proc.devRef .tc main_v61)
      = pad S100352x128 ![0, 0] ![352, 0] ![0, 0] (V (Proc.devRef .tc main_v46) : FVec Ideal S100000x128 .f32) (sitofp (F := Ideal) .f32 (constantI S_ 32 0#32)) pads_S100000x128_S100352x128_03520_000 h_S_ := by
  after_results <;> rfl

set_option maxHeartbeats 8000000 in
/-- The count column, padded with ones. -/
theorem v62 :
    StableHlo.after hostOps2_6 (StableHlo.after hostOps2_5 (StableHlo.after hostOps2_4 (StableHlo.after hostOps2_3
      (StableHlo.after hostOps2_2 (StableHlo.after hostOps2_1 V))))) (Proc.devRef .tc main_v62)
      = pad S100352x1 ![0, 0] ![352, 0] ![0, 0] (V (Proc.devRef .tc main_v8) : FVec Ideal S100000x1 .f32) (constant (F := Ideal) S_ .f32 0x3F800000#32) pads_S100000x1_S100352x1_03520_000 h_S_ := by
  after_results <;> rfl

set_option maxHeartbeats 8000000 in
/-- The bias as a row. -/
theorem v63 :
    StableHlo.after hostOps2_6 (StableHlo.after hostOps2_5 (StableHlo.after hostOps2_4 (StableHlo.after hostOps2_3
      (StableHlo.after hostOps2_2 (StableHlo.after hostOps2_1 V))))) (Proc.devRef .tc main_v63)
      = shapeCast S1x128 (V (Proc.devRef .tc main_arg10) : FVec Ideal S128 .f32) shapeCasts_S128_S1x128 := by
  after_results <;> rfl

set_option maxHeartbeats 8000000 in
/-- The stretch does not write this buffer. -/
theorem keep_arg9 :
    StableHlo.after hostOps2_6 (StableHlo.after hostOps2_5 (StableHlo.after hostOps2_4 (StableHlo.after hostOps2_3
      (StableHlo.after hostOps2_2 (StableHlo.after hostOps2_1 V))))) (Proc.devRef .tc main_arg9)
      = V (Proc.devRef .tc main_arg9) := by
  after_results <;> rfl

set_option maxHeartbeats 8000000 in
/-- The stretch does not write this buffer. -/
theorem keep_arg11 :
    StableHlo.after hostOps2_6 (StableHlo.after hostOps2_5 (StableHlo.after hostOps2_4 (StableHlo.after hostOps2_3
      (StableHlo.after hostOps2_2 (StableHlo.after hostOps2_1 V))))) (Proc.devRef .tc main_arg11)
      = V (Proc.devRef .tc main_arg11) := by
  after_results <;> rfl

set_option maxHeartbeats 8000000 in
/-- The returned array: the last region's array cut back to the nodes. -/
theorem v65 :
    StableHlo.after hostOps3 V (Proc.devRef .tc main_v65)
      = extractStridedSlice S100000x128 ![0, 0] (V (Proc.devRef .tc main_v64) : FVec Ideal S100352x128 .f32) slices_S100352x128_S100000x128_0_0 := by
  after_results <;> rfl

end Cert.KernelIdeal.Reads.T2L3

end
-- ==== Proof.Fold.lean ====
/-
  The returned array, read back through the program: three layers of the argument arrays.

  The contents of the buffers at each boundary of the program are a fold from the launch memory: a stretch of
  array operations applies them, a tiled region replaces its output array by the padded layer of its operand
  arrays. Walking the fold forward: the first stretch computes the edges' source and destination rows, the
  incoming-edge counts and the neighbour sum of the node features; the next stretches pad them and lay the bias
  out as a row; the first region leaves the first hidden layer over the padded range, and the stretch after it
  cuts it back to the 100000 nodes — that is the first layer H1 of the arguments. The same again from H1 gives
  H2 (the edge rows, the counts and the edge weights are the buffers computed at the start, which nothing
  writes in between), and again from H2, without the rectifier, the returned array H3.
-/
import proofs.«170721_j13219909337540_1_alg».proof.Proof.Gen.KernelIdeal.Frame
import proofs.«170721_j13219909337540_1_alg».proof.Proof.KLayer
import proofs.«170721_j13219909337540_1_alg».proof.Proof.Region0
import proofs.«170721_j13219909337540_1_alg».proof.Proof.Region1
import proofs.«170721_j13219909337540_1_alg».proof.Proof.Region2
import proofs.«170721_j13219909337540_1_alg».proof.Proof.ReadsL0
import proofs.«170721_j13219909337540_1_alg».proof.Proof.ReadsT0
import proofs.«170721_j13219909337540_1_alg».proof.Proof.ReadsL1
import proofs.«170721_j13219909337540_1_alg».proof.Proof.ReadsT1
import proofs.«170721_j13219909337540_1_alg».proof.Proof.ReadsL2
import proofs.«170721_j13219909337540_1_alg».proof.Proof.ReadsT2L3

set_option maxRecDepth 16384

noncomputable section

namespace Cert.KernelIdeal.Fold

open Cert.KernelIdeal Cert.KernelIdeal.Gen Cert.KernelIdeal.Layer Cert.KernelIdeal.Padded
open Idealize.ShloMosaic Idealize.ShloMosaic.TcCoe Idealize.SL.Sem

variable (m : (ℓ : Loc nD τ sig) → Buf (Elt Ideal) ℓ) (ρ : Dev nD → PrngReg)

/-! ## The argument arrays and the three layers -/

/-- The node features. -/
abbrev x0 (c : Dev nD) : FVec Ideal S100000x128 .f32 := m ((c : Thread nD τ).loc main_arg0)
/-- The edge list. -/
abbrev ei (c : Dev nD) : IVec S2x1600000 32 := m ((c : Thread nD τ).loc main_arg1)
/-- The edge weights. -/
abbrev ew (c : Dev nD) : FVec Ideal S1600000 .f32 := m ((c : Thread nD τ).loc main_arg2)

/-- The padding value of the summed rows and of the features: the integer zero as a float. -/
def z0 : FVec Ideal S_ .f32 := sitofp (F := Ideal) .f32 (constantI S_ 32 0#32)
/-- The padding value of the counts: one. -/
def o1 : FVec Ideal S_ .f32 := constant (F := Ideal) S_ .f32 0x3F800000#32

/-- The first hidden layer of the arguments. -/
def H1 (c : Dev nD) : FVec Ideal S100000x128 .f32 :=
  layer true z0 z0 o1 (ei m c) (ew m c) (m ((c : Thread nD τ).loc main_arg3)) (m ((c : Thread nD τ).loc main_arg4)) (m ((c : Thread nD τ).loc main_arg5)) (x0 m c)
/-- The second hidden layer. -/
def H2 (c : Dev nD) : FVec Ideal S100000x128 .f32 :=
  layer true z0 z0 o1 (ei m c) (ew m c) (m ((c : Thread nD τ).loc main_arg6)) (m ((c : Thread nD τ).loc main_arg7)) (m ((c : Thread nD τ).loc main_arg8)) (H1 m c)
/-- The last layer. -/
def H3 (c : Dev nD) : FVec Ideal S100000x128 .f32 :=
  layer false z0 z0 o1 (ei m c) (ew m c) (m ((c : Thread nD τ).loc main_arg9)) (m ((c : Thread nD τ).loc main_arg10)) (m ((c : Thread nD τ).loc main_arg11)) (H2 m c)

/-! ## After the first stretch -/

theorem w1_v1 (c : Dev nD) : W1 m ρ c (Proc.devRef .tc main_v1) = src (ei m c) := Reads.L0.v1 (W0 m ρ c)
theorem w1_v3 (c : Dev nD) : W1 m ρ c (Proc.devRef .tc main_v3) = dst (ei m c) := Reads.L0.v3 (W0 m ρ c)
theorem w1_v8 (c : Dev nD) : W1 m ρ c (Proc.devRef .tc main_v8) = degCol (ei m c) := Reads.L0.v8 (W0 m ρ c)
theorem w1_v21 (c : Dev nD) : W1 m ρ c (Proc.devRef .tc main_v21) = agg (ei m c) (ew m c) (x0 m c) := Reads.L0.v21 (W0 m ρ c)
theorem w1_c3 (c : Dev nD) : W1 m ρ c (Proc.devRef .tc main_c_3) = constantI S_ 32 0#32 := Reads.L0.c_3 (W0 m ρ c)
theorem w1_arg0 (c : Dev nD) : W1 m ρ c (Proc.devRef .tc main_arg0) = m ((c : Thread nD τ).loc main_arg0) := Reads.L0.keep_arg0 (W0 m ρ c)
theorem w1_arg2 (c : Dev nD) : W1 m ρ c (Proc.devRef .tc main_arg2) = m ((c : Thread nD τ).loc main_arg2) := Reads.L0.keep_arg2 (W0 m ρ c)
theorem w1_arg3 (c : Dev nD) : W1 m ρ c (Proc.devRef .tc main_arg3) = m ((c : Thread nD τ).loc main_arg3) := Reads.L0.keep_arg3 (W0 m ρ c)
theorem w1_arg4 (c : Dev nD) : W1 m ρ c (Proc.devRef .tc main_arg4) = m ((c : Thread nD τ).loc main_arg4) := Reads.L0.keep_arg4 (W0 m ρ c)
theorem w1_arg5 (c : Dev nD) : W1 m ρ c (Proc.devRef .tc main_arg5) = m ((c : Thread nD τ).loc main_arg5) := Reads.L0.keep_arg5 (W0 m ρ c)
theorem w1_arg6 (c : Dev nD) : W1 m ρ c (Proc.devRef .tc main_arg6) = m ((c : Thread nD τ).loc main_arg6) := Reads.L0.keep_arg6 (W0 m ρ c)
theorem w1_arg7 (c : Dev nD) : W1 m ρ c (Proc.devRef .tc main_arg7) = m ((c : Thread nD τ).loc main_arg7) := Reads.L0.keep_arg7 (W0 m ρ c)
theorem w1_arg8 (c : Dev nD) : W1 m ρ c (Proc.devRef .tc main_arg8) = m ((c : Thread nD τ).loc main_arg8) := Reads.L0.keep_arg8 (W0 m ρ c)
theorem w1_arg9 (c : Dev nD) : W1 m ρ c (Proc.devRef .tc main_arg9) = m ((c : Thread nD τ).loc main_arg9) := Reads.L0.keep_arg9 (W0 m ρ c)
theorem w1_arg10 (c : Dev nD) : W1 m ρ c (Proc.devRef .tc main_arg10) = m ((c : Thread nD τ).loc main_arg10) := Reads.L0.keep_arg10 (W0 m ρ c)
theorem w1_arg11 (c : Dev nD) : W1 m ρ c (Proc.devRef .tc main_arg11) = m ((c : Thread nD τ).loc main_arg11) := Reads.L0.keep_arg11 (W0 m ρ c)

/-! ## At the first region's entry -/

theorem w7_v22 (c : Dev nD) : W7 m ρ c (Proc.devRef .tc main_v22)
    = pad S100352x128 ![0, 0] ![352, 0] ![0, 0] (agg (ei m c) (ew m c) (x0 m c)) z0 pads_S100000x128_S100352x128_03520_000 h_S_ :=
  (Reads.T0.v22 (W1 m ρ c)).trans (by rw [w1_v21 m ρ c, w1_c3 m ρ c]; rfl)
theorem w7_v23 (c : Dev nD) : W7 m ρ c (Proc.devRef .tc main_v23)
    = pad S100352x128 ![0, 0] ![352, 0] ![0, 0] (x0 m c) z0 pads_S100000x128_S100352x128_03520_000 h_S_ :=
  (Reads.T0.v23 (W1 m ρ c)).trans (by rw [w1_arg0 m ρ c]; rfl)
theorem w7_v24 (c : Dev nD) : W7 m ρ c (Proc.devRef .tc main_v24)
    = pad S100352x1 ![0, 0] ![352, 0] ![0, 0] (degCol (ei m c)) o1 pads_S100000x1_S100352x1_03520_000 h_S_ :=
  (Reads.T0.v24 (W1 m ρ c)).trans (by rw [w1_v8 m ρ c]; rfl)
theorem w7_v25 (c : Dev nD) : W7 m ρ c (Proc.devRef .tc main_v25) = shapeCast S1x128 (m ((c : Thread nD τ).loc main_arg4)) shapeCasts_S128_S1x128 :=
  (Reads.T0.v25 (W1 m ρ c)).trans (by rw [w1_arg4 m ρ c])
theorem w7_arg3 (c : Dev nD) : W7 m ρ c (Proc.devRef .tc main_arg3) = m ((c : Thread nD τ).loc main_arg3) :=
  (Reads.T0.keep_arg3 (W1 m ρ c)).trans (w1_arg3 m ρ c)
theorem w7_arg5 (c : Dev nD) : W7 m ρ c (Proc.devRef .tc main_arg5) = m ((c : Thread nD τ).loc main_arg5) :=
  (Reads.T0.keep_arg5 (W1 m ρ c)).trans (w1_arg5 m ρ c)
theorem w7_arg2 (c : Dev nD) : W7 m ρ c (Proc.devRef .tc main_arg2) = m ((c : Thread nD τ).loc main_arg2) :=
  (Reads.T0.keep_arg2 (W1 m ρ c)).trans (w1_arg2 m ρ c)
theorem w7_arg6 (c : Dev nD) : W7 m ρ c (Proc.devRef .tc main_arg6) = m ((c : Thread nD τ).loc main_arg6) :=
  (Reads.T0.keep_arg6 (W1 m ρ c)).trans (w1_arg6 m ρ c)
theorem w7_arg7 (c : Dev nD) : W7 m ρ c (Proc.devRef .tc main_arg7) = m ((c : Thread nD τ).loc main_arg7) :=
  (Reads.T0.keep_arg7 (W1 m ρ c)).trans (w1_arg7 m ρ c)
theorem w7_arg8 (c : Dev nD) : W7 m ρ c (Proc.devRef .tc main_arg8) = m ((c : Thread nD τ).loc main_arg8) :=
  (Reads.T0.keep_arg8 (W1 m ρ c)).trans (w1_arg8 m ρ c)
theorem w7_arg9 (c : Dev nD) : W7 m ρ c (Proc.devRef .tc main_arg9) = m ((c : Thread nD τ).loc main_arg9) :=
  (Reads.T0.keep_arg9 (W1 m ρ c)).trans (w1_arg9 m ρ c)
theorem w7_arg10 (c : Dev nD) : W7 m ρ c (Proc.devRef .tc main_arg10) = m ((c : Thread nD τ).loc main_arg10) :=
  (Reads.T0.keep_arg10 (W1 m ρ c)).trans (w1_arg10 m ρ c)
theorem w7_arg11 (c : Dev nD) : W7 m ρ c (Proc.devRef .tc main_arg11) = m ((c : Thread nD τ).loc main_arg11) :=
  (Reads.T0.keep_arg11 (W1 m ρ c)).trans (w1_arg11 m ρ c)
theorem w7_v1 (c : Dev nD) : W7 m ρ c (Proc.devRef .tc main_v1) = src (ei m c) :=
  (Reads.T0.keep_v1 (W1 m ρ c)).trans (w1_v1 m ρ c)
theorem w7_v3 (c : Dev nD) : W7 m ρ c (Proc.devRef .tc main_v3) = dst (ei m c) :=
  (Reads.T0.keep_v3 (W1 m ρ c)).trans (w1_v3 m ρ c)
theorem w7_v8 (c : Dev nD) : W7 m ρ c (Proc.devRef .tc main_v8) = degCol (ei m c) :=
  (Reads.T0.keep_v8 (W1 m ρ c)).trans (w1_v8 m ρ c)

/-! ## The first region: the first hidden layer over the padded range -/

theorem w8_v26 (c : Dev nD) : W8 m ρ c (Proc.devRef .tc main_v26)
    = padded true (pad S100352x128 ![0, 0] ![352, 0] ![0, 0] (agg (ei m c) (ew m c) (x0 m c)) z0 pads_S100000x128_S100352x128_03520_000 h_S_)
        (pad S100352x128 ![0, 0] ![352, 0] ![0, 0] (x0 m c) z0 pads_S100000x128_S100352x128_03520_000 h_S_)
        (pad S100352x1 ![0, 0] ![352, 0] ![0, 0] (degCol (ei m c)) o1 pads_S100000x1_S100352x1_03520_000 h_S_)
        (m ((c : Thread nD τ).loc main_arg3)) (m ((c : Thread nD τ).loc main_arg5)) (shapeCast S1x128 (m ((c : Thread nD τ).loc main_arg4)) shapeCasts_S128_S1x128) :=
  (W8_arr m ρ c 6).trans ((Region0.final (V7 m ρ) c).trans (by
    show padded true (W7 m ρ c (Proc.devRef .tc main_v22)) (W7 m ρ c (Proc.devRef .tc main_v23)) (W7 m ρ c (Proc.devRef .tc main_v24))
      (W7 m ρ c (Proc.devRef .tc main_arg3)) (W7 m ρ c (Proc.devRef .tc main_arg5)) (W7 m ρ c (Proc.devRef .tc main_v25)) = _
    rw [w7_v22 m ρ c, w7_v23 m ρ c, w7_v24 m ρ c, w7_arg3 m ρ c, w7_arg5 m ρ c, w7_v25 m ρ c]))
theorem w8_v1 (c : Dev nD) : W8 m ρ c (Proc.devRef .tc main_v1) = src (ei m c) := (W8_of_ne m ρ c main_v1 (by decide)).trans (w7_v1 m ρ c)
theorem w8_v3 (c : Dev nD) : W8 m ρ c (Proc.devRef .tc main_v3) = dst (ei m c) := (W8_of_ne m ρ c main_v3 (by decide)).trans (w7_v3 m ρ c)
theorem w8_v8 (c : Dev nD) : W8 m ρ c (Proc.devRef .tc main_v8) = degCol (ei m c) := (W8_of_ne m ρ c main_v8 (by decide)).trans (w7_v8 m ρ c)
theorem w8_arg2 (c : Dev nD) : W8 m ρ c (Proc.devRef .tc main_arg2) = m ((c : Thread nD τ).loc main_arg2) := (W8_of_ne m ρ c main_arg2 (by decide)).trans (w7_arg2 m ρ c)
theorem w8_arg6 (c : Dev nD) : W8 m ρ c (Proc.devRef .tc main_arg6) = m ((c : Thread nD τ).loc main_arg6) := (W8_of_ne m ρ c main_arg6 (by decide)).trans (w7_arg6 m ρ c)
theorem w8_arg7 (c : Dev nD) : W8 m ρ c (Proc.devRef .tc main_arg7) = m ((c : Thread nD τ).loc main_arg7) := (W8_of_ne m ρ c main_arg7 (by decide)).trans (w7_arg7 m ρ c)
theorem w8_arg8 (c : Dev nD) : W8 m ρ c (Proc.devRef .tc main_arg8) = m ((c : Thread nD τ).loc main_arg8) := (W8_of_ne m ρ c main_arg8 (by decide)).trans (w7_arg8 m ρ c)
theorem w8_arg9 (c : Dev nD) : W8 m ρ c (Proc.devRef .tc main_arg9) = m ((c : Thread nD τ).loc main_arg9) := (W8_of_ne m ρ c main_arg9 (by decide)).trans (w7_arg9 m ρ c)
theorem w8_arg10 (c : Dev nD) : W8 m ρ c (Proc.devRef .tc main_arg10) = m ((c : Thread nD τ).loc main_arg10) := (W8_of_ne m ρ c main_arg10 (by decide)).trans (w7_arg10 m ρ c)
theorem w8_arg11 (c : Dev nD) : W8 m ρ c (Proc.devRef .tc main_arg11) = m ((c : Thread nD τ).loc main_arg11) := (W8_of_ne m ρ c main_arg11 (by decide)).trans (w7_arg11 m ρ c)

/-! ## After the stretch that follows the first region: the first layer, and its neighbour sum -/

theorem w9_v27 (c : Dev nD) : W9 m ρ c (Proc.devRef .tc main_v27) = H1 m c :=
  (Reads.L1.v27 (W8 m ρ c)).trans (by rw [w8_v26 m ρ c]; rfl)
theorem w9_v40 (c : Dev nD) : W9 m ρ c (Proc.devRef .tc main_v40) = agg (ei m c) (ew m c) (H1 m c) :=
  (Reads.L1.v40 (W8 m ρ c)).trans (by rw [w8_v1 m ρ c, w8_v3 m ρ c, w8_arg2 m ρ c, w8_v26 m ρ c]; rfl)
theorem w9_c9 (c : Dev nD) : W9 m ρ c (Proc.devRef .tc main_c_9) = constantI S_ 32 0#32 := Reads.L1.c_9 (W8 m ρ c)
theorem w9_v1 (c : Dev nD) : W9 m ρ c (Proc.devRef .tc main_v1) = src (ei m c) :=
  (Reads.L1.keep_v1 (W8 m ρ c)).trans (w8_v1 m ρ c)
theorem w9_v3 (c : Dev nD) : W9 m ρ c (Proc.devRef .tc main_v3) = dst (ei m c) :=
  (Reads.L1.keep_v3 (W8 m ρ c)).trans (w8_v3 m ρ c)
theorem w9_v8 (c : Dev nD) : W9 m ρ c (Proc.devRef .tc main_v8) = degCol (ei m c) :=
  (Reads.L1.keep_v8 (W8 m ρ c)).trans (w8_v8 m ρ c)
theorem w9_arg2 (c : Dev nD) : W9 m ρ c (Proc.devRef .tc main_arg2) = m ((c : Thread nD τ).loc main_arg2) :=
  (Reads.L1.keep_arg2 (W8 m ρ c)).trans (w8_arg2 m ρ c)
theorem w9_arg6 (c : Dev nD) : W9 m ρ c (Proc.devRef .tc main_arg6) = m ((c : Thread nD τ).loc main_arg6) :=
  (Reads.L1.keep_arg6 (W8 m ρ c)).trans (w8_arg6 m ρ c)
theorem w9_arg7 (c : Dev nD) : W9 m ρ c (Proc.devRef .tc main_arg7) = m ((c : Thread nD τ).loc main_arg7) :=
  (Reads.L1.keep_arg7 (W8 m ρ c)).trans (w8_arg7 m ρ c)
theorem w9_arg8 (c : Dev nD) : W9 m ρ c (Proc.devRef .tc main_arg8) = m ((c : Thread nD τ).loc main_arg8) :=
  (Reads.L1.keep_arg8 (W8 m ρ c)).trans (w8_arg8 m ρ c)
theorem w9_arg9 (c : Dev nD) : W9 m ρ c (Proc.devRef .tc main_arg9) = m ((c : Thread nD τ).loc main_arg9) :=
  (Reads.L1.keep_arg9 (W8 m ρ c)).trans (w8_arg9 m ρ c)
theorem w9_arg10 (c : Dev nD) : W9 m ρ c (Proc.devRef .tc main_arg10) = m ((c : Thread nD τ).loc main_arg10) :=
  (Reads.L1.keep_arg10 (W8 m ρ c)).trans (w8_arg10 m ρ c)
theorem w9_arg11 (c : Dev nD) : W9 m ρ c (Proc.devRef .tc main_arg11) = m ((c : Thread nD τ).loc main_arg11) :=
  (Reads.L1.keep_arg11 (W8 m ρ c)).trans (w8_arg11 m ρ c)

/-! ## At the second region's entry -/

theorem w15_v41 (c : Dev nD) : W15 m ρ c (Proc.devRef .tc main_v41)
    = pad S100352x128 ![0, 0] ![352, 0] ![0, 0] (agg (ei m c) (ew m c) (H1 m c)) z0 pads_S100000x128_S100352x128_03520_000 h_S_ :=
  (Reads.T1.v41 (W9 m ρ c)).trans (by rw [w9_v40 m ρ c, w9_c9 m ρ c]; rfl)
theorem w15_v42 (c : Dev nD) : W15 m ρ c (Proc.devRef .tc main_v42)
    = pad S100352x128 ![0, 0] ![352, 0] ![0, 0] (H1 m c) z0 pads_S100000x128_S100352x128_03520_000 h_S_ :=
  (Reads.T1.v42 (W9 m ρ c)).trans (by rw [w9_v27 m ρ c]; rfl)
theorem w15_v43 (c : Dev nD) : W15 m ρ c (Proc.devRef .tc main_v43)
    = pad S100352x1 ![0, 0] ![352, 0] ![0, 0] (degCol (ei m c)) o1 pads_S100000x1_S100352x1_03520_000 h_S_ :=
  (Reads.T1.v43 (W9 m ρ c)).trans (by rw [w9_v8 m ρ c]; rfl)
theorem w15_v44 (c : Dev nD) : W15 m ρ c (Proc.devRef .tc main_v44) = shapeCast S1x128 (m ((c : Thread nD τ).loc main_arg7)) shapeCasts_S128_S1x128 :=
  (Reads.T1.v44 (W9 m ρ c)).trans (by rw [w9_arg7 m ρ c])
theorem w15_arg6 (c : Dev nD) : W15 m ρ c (Proc.devRef .tc main_arg6) = m ((c : Thread nD τ).loc main_arg6) :=
  (Reads.T1.keep_arg6 (W9 m ρ c)).trans (w9_arg6 m ρ c)
theorem w15_arg8 (c : Dev nD) : W15 m ρ c (Proc.devRef .tc main_arg8) = m ((c : Thread nD τ).loc main_arg8) :=
  (Reads.T1.keep_arg8 (W9 m ρ c)).trans (w9_arg8 m ρ c)
theorem w15_arg2 (c : Dev nD) : W15 m ρ c (Proc.devRef .tc main_arg2) = m ((c : Thread nD τ).loc main_arg2) :=
  (Reads.T1.keep_arg2 (W9 m ρ c)).trans (w9_arg2 m ρ c)
theorem w15_arg9 (c : Dev nD) : W15 m ρ c (Proc.devRef .tc main_arg9) = m ((c : Thread nD τ).loc main_arg9) :=
  (Reads.T1.keep_arg9 (W9 m ρ c)).trans (w9_arg9 m ρ c)
theorem w15_arg10 (c : Dev nD) : W15 m ρ c (Proc.devRef .tc main_arg10) = m ((c : Thread nD τ).loc main_arg10) :=
  (Reads.T1.keep_arg10 (W9 m ρ c)).trans (w9_arg10 m ρ c)
theorem w15_arg11 (c : Dev nD) : W15 m ρ c (Proc.devRef .tc main_arg11) = m ((c : Thread nD τ).loc main_arg11) :=
  (Reads.T1.keep_arg11 (W9 m ρ c)).trans (w9_arg11 m ρ c)
theorem w15_v1 (c : Dev nD) : W15 m ρ c (Proc.devRef .tc main_v1) = src (ei m c) :=
  (Reads.T1.keep_v1 (W9 m ρ c)).trans (w9_v1 m ρ c)
theorem w15_v3 (c : Dev nD) : W15 m ρ c (Proc.devRef .tc main_v3) = dst (ei m c) :=
  (Reads.T1.keep_v3 (W9 m ρ c)).trans (w9_v3 m ρ c)
theorem w15_v8 (c : Dev nD) : W15 m ρ c (Proc.devRef .tc main_v8) = degCol (ei m c) :=
  (Reads.T1.keep_v8 (W9 m ρ c)).trans (w9_v8 m ρ c)

/-! ## The second region: the second hidden layer over the padded range -/

theorem w16_v45 (c : Dev nD) : W16 m ρ c (Proc.devRef .tc main_v45)
    = padded true (pad S100352x128 ![0, 0] ![352, 0] ![0, 0] (agg (ei m c) (ew m c) (H1 m c)) z0 pads_S100000x128_S100352x128_03520_000 h_S_)
        (pad S100352x128 ![0, 0] ![352, 0] ![0, 0] (H1 m c) z0 pads_S100000x128_S100352x128_03520_000 h_S_)
        (pad S100352x1 ![0, 0] ![352, 0] ![0, 0] (degCol (ei m c)) o1 pads_S100000x1_S100352x1_03520_000 h_S_)
        (m ((c : Thread nD τ).loc main_arg6)) (m ((c : Thread nD τ).loc main_arg8)) (shapeCast S1x128 (m ((c : Thread nD τ).loc main_arg7)) shapeCasts_S128_S1x128) :=
  (W16_arr m ρ c 6).trans ((Region1.final (V15 m ρ) c).trans (by
    show padded true (W15 m ρ c (Proc.devRef .tc main_v41)) (W15 m ρ c (Proc.devRef .tc main_v42)) (W15 m ρ c (Proc.devRef .tc main_v43))
      (W15 m ρ c (Proc.devRef .tc main_arg6)) (W15 m ρ c (Proc.devRef .tc main_arg8)) (W15 m ρ c (Proc.devRef .tc main_v44)) = _
    rw [w15_v41 m ρ c, w15_v42 m ρ c, w15_v43 m ρ c, w15_arg6 m ρ c, w15_arg8 m ρ c, w15_v44 m ρ c]))
theorem w16_v1 (c : Dev nD) : W16 m ρ c (Proc.devRef .tc main_v1) = src (ei m c) := (W16_of_ne m ρ c main_v1 (by decide)).trans (w15_v1 m ρ c)
theorem w16_v3 (c : Dev nD) : W16 m ρ c (Proc.devRef .tc main_v3) = dst (ei m c) := (W16_of_ne m ρ c main_v3 (by decide)).trans (w15_v3 m ρ c)
theorem w16_v8 (c : Dev nD) : W16 m ρ c (Proc.devRef .tc main_v8) = degCol (ei m c) := (W16_of_ne m ρ c main_v8 (by decide)).trans (w15_v8 m ρ c)
theorem w16_arg2 (c : Dev nD) : W16 m ρ c (Proc.devRef .tc main_arg2) = m ((c : Thread nD τ).loc main_arg2) := (W16_of_ne m ρ c main_arg2 (by decide)).trans (w15_arg2 m ρ c)
theorem w16_arg9 (c : Dev nD) : W16 m ρ c (Proc.devRef .tc main_arg9) = m ((c : Thread nD τ).loc main_arg9) := (W16_of_ne m ρ c main_arg9 (by decide)).trans (w15_arg9 m ρ c)
theorem w16_arg10 (c : Dev nD) : W16 m ρ c (Proc.devRef .tc main_arg10) = m ((c : Thread nD τ).loc main_arg10) := (W16_of_ne m ρ c main_arg10 (by decide)).trans (w15_arg10 m ρ c)
theorem w16_arg11 (c : Dev nD) : W16 m ρ c (Proc.devRef .tc main_arg11) = m ((c : Thread nD τ).loc main_arg11) := (W16_of_ne m ρ c main_arg11 (by decide)).trans (w15_arg11 m ρ c)

/-! ## After the stretch that follows the second region: the second layer, and its neighbour sum -/

theorem w17_v46 (c : Dev nD) : W17 m ρ c (Proc.devRef .tc main_v46) = H2 m c :=
  (Reads.L2.v46 (W16 m ρ c)).trans (by rw [w16_v45 m ρ c]; rfl)
theorem w17_v59 (c : Dev nD) : W17 m ρ c (Proc.devRef .tc main_v59) = agg (ei m c) (ew m c) (H2 m c) :=
  (Reads.L2.v59 (W16 m ρ c)).trans (by rw [w16_v1 m ρ c, w16_v3 m ρ c, w16_arg2 m ρ c, w16_v45 m ρ c]; rfl)
theorem w17_c15 (c : Dev nD) : W17 m ρ c (Proc.devRef .tc main_c_15) = constantI S_ 32 0#32 := Reads.L2.c_15 (W16 m ρ c)
theorem w17_v8 (c : Dev nD) : W17 m ρ c (Proc.devRef .tc main_v8) = degCol (ei m c) :=
  (Reads.L2.keep_v8 (W16 m ρ c)).trans (w16_v8 m ρ c)
theorem w17_arg9 (c : Dev nD) : W17 m ρ c (Proc.devRef .tc main_arg9) = m ((c : Thread nD τ).loc main_arg9) :=
  (Reads.L2.keep_arg9 (W16 m ρ c)).trans (w16_arg9 m ρ c)
theorem w17_arg10 (c : Dev nD) : W17 m ρ c (Proc.devRef .tc main_arg10) = m ((c : Thread nD τ).loc main_arg10) :=
  (Reads.L2.keep_arg10 (W16 m ρ c)).trans (w16_arg10 m ρ c)
theorem w17_arg11 (c : Dev nD) : W17 m ρ c (Proc.devRef .tc main_arg11) = m ((c : Thread nD τ).loc main_arg11) :=
  (Reads.L2.keep_arg11 (W16 m ρ c)).trans (w16_arg11 m ρ c)

/-! ## At the third region's entry -/

theorem w23_v60 (c : Dev nD) : W23 m ρ c (Proc.devRef .tc main_v60)
    = pad S100352x128 ![0, 0] ![352, 0] ![0, 0] (agg (ei m c) (ew m c) (H2 m c)) z0 pads_S100000x128_S100352x128_03520_000 h_S_ :=
  (Reads.T2L3.v60 (W17 m ρ c)).trans (by rw [w17_v59 m ρ c, w17_c15 m ρ c]; rfl)
theorem w23_v61 (c : Dev nD) : W23 m ρ c (Proc.devRef .tc main_v61)
    = pad S100352x128 ![0, 0] ![352, 0] ![0, 0] (H2 m c) z0 pads_S100000x128_S100352x128_03520_000 h_S_ :=
  (Reads.T2L3.v61 (W17 m ρ c)).trans (by rw [w17_v46 m ρ c]; rfl)
theorem w23_v62 (c : Dev nD) : W23 m ρ c (Proc.devRef .tc main_v62)
    = pad S100352x1 ![0, 0] ![352, 0] ![0, 0] (degCol (ei m c)) o1 pads_S100000x1_S100352x1_03520_000 h_S_ :=
  (Reads.T2L3.v62 (W17 m ρ c)).trans (by rw [w17_v8 m ρ c]; rfl)
theorem w23_v63 (c : Dev nD) : W23 m ρ c (Proc.devRef .tc main_v63) = shapeCast S1x128 (m ((c : Thread nD τ).loc main_arg10)) shapeCasts_S128_S1x128 :=
  (Reads.T2L3.v63 (W17 m ρ c)).trans (by rw [w17_arg10 m ρ c])
theorem w23_arg9 (c : Dev nD) : W23 m ρ c (Proc.devRef .tc main_arg9) = m ((c : Thread nD τ).loc main_arg9) :=
  (Reads.T2L3.keep_arg9 (W17 m ρ c)).trans (w17_arg9 m ρ c)
theorem w23_arg11 (c : Dev nD) : W23 m ρ c (Proc.devRef .tc main_arg11) = m ((c : Thread nD τ).loc main_arg11) :=
  (Reads.T2L3.keep_arg11 (W17 m ρ c)).trans (w17_arg11 m ρ c)

/-! ## The third region, and the last cut: the returned array -/

theorem w24_v64 (c : Dev nD) : W24 m ρ c (Proc.devRef .tc main_v64)
    = padded false (pad S100352x128 ![0, 0] ![352, 0] ![0, 0] (agg (ei m c) (ew m c) (H2 m c)) z0 pads_S100000x128_S100352x128_03520_000 h_S_)
        (pad S100352x128 ![0, 0] ![352, 0] ![0, 0] (H2 m c) z0 pads_S100000x128_S100352x128_03520_000 h_S_)
        (pad S100352x1 ![0, 0] ![352, 0] ![0, 0] (degCol (ei m c)) o1 pads_S100000x1_S100352x1_03520_000 h_S_)
        (m ((c : Thread nD τ).loc main_arg9)) (m ((c : Thread nD τ).loc main_arg11)) (shapeCast S1x128 (m ((c : Thread nD τ).loc main_arg10)) shapeCasts_S128_S1x128) :=
  (W24_arr m ρ c 6).trans ((Region2.final (V23 m ρ) c).trans (by
    show padded false (W23 m ρ c (Proc.devRef .tc main_v60)) (W23 m ρ c (Proc.devRef .tc main_v61)) (W23 m ρ c (Proc.devRef .tc main_v62))
      (W23 m ρ c (Proc.devRef .tc main_arg9)) (W23 m ρ c (Proc.devRef .tc main_arg11)) (W23 m ρ c (Proc.devRef .tc main_v63)) = _
    rw [w23_v60 m ρ c, w23_v61 m ρ c, w23_v62 m ρ c, w23_arg9 m ρ c, w23_arg11 m ρ c, w23_v63 m ρ c]))

/-- THE RETURNED ARRAY is the last layer of the second hidden layer of the first hidden layer of the arguments. -/
theorem result (c : Dev nD) : W25 m ρ c (Proc.devRef .tc main_v65) = H3 m c :=
  (Reads.T2L3.v65 (W24 m ρ c)).trans (by rw [w24_v64 m ρ c]; rfl)

end Cert.KernelIdeal.Fold

end
-- ==== Proof.RefLayer.lean ====
/-
  The reference's layer, read at an entry.

  The reference computes each layer with whole-array operations of three arrays: the weighted neighbour sums A,
  the layer's input H and the incoming-edge counts Dg. The summed rows are divided by max(count, 1) repeated
  across the features; one matrix product, the bias row repeated down the nodes, and the product of the input
  with the second matrix are added; a hidden layer keeps the positive part. Read at node r and feature q this is
  the layer's formula, for ANY three arrays: how A and Dg come from the edges plays no part here.
-/
import proofs.«170721_j13219909337540_1_alg».proof.Proof.Gen.ReferenceIdeal
import proofs.«170721_j13219909337540_1_alg».proof.Proof.LibDotRecord
import proofs.«170721_j13219909337540_1_alg».proof.Proof.Sage
import Idealize.ShloMosaic.Lib.Pipeline.Value

noncomputable section

namespace Cert.ReferenceIdeal.Layer

open Cert.ReferenceIdeal Cert.ReferenceIdeal.Gen Idealize.ShloMosaic Idealize.ShloMosaic.ValueIdx

/-- One layer before the rectifier, as the reference's whole-array operations of the summed rows `A`, the input `H`
    and the counts `Dg`. -/
def affineOf (A H : FVec Ideal S100000x128 .f32) (Dg : FVec Ideal S100000 .f32) (Wl : FVec Ideal S128x128 .f32) (bl : FVec Ideal S128 .f32)
    (Wr : FVec Ideal S128x128 .f32) : FVec Ideal S100000x128 .f32 :=
  addf (addf (Host.dotGeneral dot_S100000x128_S128x128_S100000x128_1_0_0_1_n_n none
        (Host.divf A
          (broadcastInDim S100000x128 ![0, 1] bcast_S100000x1_S100000x128_0_1
            (broadcastInDim S100000x1 ![0] bcast_S100000_S100000x1_0
              (maximumf Dg (broadcastInDim S100000 ![] bcast_S_S100000 (constant (F := Ideal) S_ .f32 0x3F800000#32))))))
        Wl)
      (broadcastInDim S100000x128 ![0, 1] bcast_S1x128_S100000x128_0_1 (broadcastInDim S1x128 ![1] bcast_S128_S1x128_1 bl)))
    (Host.dotGeneral dot_S100000x128_S128x128_S100000x128_1_0_0_1_n_n none H Wr)

/-- A hidden layer: the positive part of the affine part. -/
def hiddenOf (A H : FVec Ideal S100000x128 .f32) (Dg : FVec Ideal S100000 .f32) (Wl : FVec Ideal S128x128 .f32) (bl : FVec Ideal S128 .f32)
    (Wr : FVec Ideal S128x128 .f32) : FVec Ideal S100000x128 .f32 :=
  maximumf (affineOf A H Dg Wl bl Wr) (broadcastInDim S100000x128 ![] bcast_S_S100000x128 (constant (F := Ideal) S_ .f32 0x00000000#32))

/-- The reference's matrix product at an entry: the sum over the 128 contracted features. -/
theorem product_apply (l : FVec Ideal S100000x128 .f32) (r : FVec Ideal S128x128 .f32) (p : Fin 100000) (q : Fin 128) :
    Host.dotGeneral (F := Ideal) dot_S100000x128_S128x128_S100000x128_1_0_0_1_n_n none l r (ix2 p q)
      = ∑ k : Fin 128, l (ix2 p k) * r (ix2 k q) := by
  simp only [Host.dotGeneral]
  rw [DotRecord.eq_plain dot_S100000x128_S128x128_S100000x128_1_0_0_1_n_n rfl rfl rfl rfl rfl rfl]
  exact Gcn.Lib.plain_dotGeneral_apply l r none _ p q

/-- The divisor at `(r, k)`: max(count of node r, 1), whatever the feature. -/
theorem divisor_apply (d : FVec Ideal S100000 .f32) (r : Fin 100000) (k : Fin 128) :
    broadcastInDim S100000x128 ![0, 1] bcast_S100000x1_S100000x128_0_1
        (broadcastInDim S100000x1 ![0] bcast_S100000_S100000x1_0
          (maximumf d (broadcastInDim S100000 ![] bcast_S_S100000 (constant (F := Ideal) S_ .f32 0x3F800000#32)))) (ix2 r k)
      = max (d (ix1 r)) Sage.one := by
  rw [broadcastInDim_apply _ bcast_S100000x1_S100000x128_0_1 _ (ix2 r k) (ix2 r (0 : Fin 1)) (fun a => match a with
      | ⟨0, _⟩ => by show r.val = if (100000 : Nat) = 1 then 0 else r.val; rw [if_neg (by decide)]
      | ⟨1, _⟩ => by show 0 = if (1 : Nat) = 1 then 0 else k.val; rw [if_pos rfl]),
    broadcastInDim_apply _ bcast_S100000_S100000x1_0 _ (ix2 r (0 : Fin 1)) (ix1 r) (fun a => match a with
      | ⟨0, _⟩ => by show r.val = if (100000 : Nat) = 1 then 0 else r.val; rw [if_neg (by decide)])]
  rfl

/-- The bias row repeated down the nodes, at `(r, q)`: the bias of feature q. -/
theorem bias_apply (bl : FVec Ideal S128 .f32) (r : Fin 100000) (q : Fin 128) :
    broadcastInDim S100000x128 ![0, 1] bcast_S1x128_S100000x128_0_1 (broadcastInDim S1x128 ![1] bcast_S128_S1x128_1 bl) (ix2 r q)
      = bl (ix1 q) := by
  rw [broadcastInDim_apply _ bcast_S1x128_S100000x128_0_1 _ (ix2 r q) (ix2 (0 : Fin 1) q) (fun a => match a with
      | ⟨0, _⟩ => by show 0 = if (1 : Nat) = 1 then 0 else r.val; rw [if_pos rfl]
      | ⟨1, _⟩ => by show q.val = if (128 : Nat) = 1 then 0 else q.val; rw [if_neg (by decide)]),
    broadcastInDim_apply _ bcast_S128_S1x128_1 _ (ix2 (0 : Fin 1) q) (ix1 q) (fun a => match a with
      | ⟨0, _⟩ => by show q.val = if (128 : Nat) = 1 then 0 else q.val; rw [if_neg (by decide)])]

/-- The reference's quotient at an entry. -/
theorem quotient_apply (a b : FVec Ideal S100000x128 .f32) (i : S100000x128.Idx) :
    Host.divf a b i = Ideal.div (a i) (b i) := rfl

/-- The broadcast zero at an entry. -/
theorem zeros_apply (i : S100000x128.Idx) :
    broadcastInDim S100000x128 ![] bcast_S_S100000x128 (constant (F := Ideal) S_ .f32 0x00000000#32) i = Sage.zero :=
  (broadcastInDim_apply _ bcast_S_S100000x128 _ i ix0 (fun a => a.elim0)).trans rfl

/-- The affine part at node `r` and feature `q`. -/
theorem affine_apply (A H : FVec Ideal S100000x128 .f32) (Dg : FVec Ideal S100000 .f32) (Wl : FVec Ideal S128x128 .f32) (bl : FVec Ideal S128 .f32)
    (Wr : FVec Ideal S128x128 .f32) (r : Fin 100000) (q : Fin 128) :
    affineOf A H Dg Wl bl Wr (ix2 r q) = Sage.pre A H Dg Wl Wr bl r q := by
  unfold affineOf Sage.pre
  refine congrArg₂ (· + ·) (congrArg₂ (· + ·) ?_ ?_) ?_
  · refine (product_apply _ Wl r q).trans ?_
    refine Finset.sum_congr rfl fun k _ => congrArg₂ (· * ·) ?_ rfl
    exact (quotient_apply _ _ _).trans (congrArg (Ideal.div (A (ix2 r k))) (divisor_apply Dg r k))
  · exact bias_apply bl r q
  · exact product_apply H Wr r q

/-- A hidden layer at node `r` and feature `q`. -/
theorem hidden_apply (A H : FVec Ideal S100000x128 .f32) (Dg : FVec Ideal S100000 .f32) (Wl : FVec Ideal S128x128 .f32) (bl : FVec Ideal S128 .f32)
    (Wr : FVec Ideal S128x128 .f32) (r : Fin 100000) (q : Fin 128) :
    hiddenOf A H Dg Wl bl Wr (ix2 r q) = Sage.layerAt true A H Dg Wl Wr bl r q := by
  unfold hiddenOf Sage.layerAt
  rw [Sage.act_true]
  exact congrArg₂ max (affine_apply A H Dg Wl bl Wr r q) (zeros_apply (ix2 r q))

/-- The last layer at node `r` and feature `q`. -/
theorem last_apply (A H : FVec Ideal S100000x128 .f32) (Dg : FVec Ideal S100000 .f32) (Wl : FVec Ideal S128x128 .f32) (bl : FVec Ideal S128 .f32)
    (Wr : FVec Ideal S128x128 .f32) (r : Fin 100000) (q : Fin 128) :
    affineOf A H Dg Wl bl Wr (ix2 r q) = Sage.layerAt false A H Dg Wl Wr bl r q := by
  unfold Sage.layerAt
  rw [Sage.act_false]
  exact affine_apply A H Dg Wl bl Wr r q

end Cert.ReferenceIdeal.Layer

end
-- ==== Proof.RefStages.lean ====
/-
  The reference's stages are its layers composed.

  The program's value at each of its operations is a stage: a function of the argument arrays. Unfolding the
  stages of one layer that come after its two scatter stages (the weighted neighbour sum and the incoming-edge
  counts, which stay folded) gives the layer's whole-array operations of those two arrays and of the previous
  layer's result: the first hidden layer from the node features, the second from the first one's result, the
  last layer from the second one's.
-/
import proofs.«170721_j13219909337540_1_alg».proof.Proof.Gen.ReferenceIdeal.Read
import proofs.«170721_j13219909337540_1_alg».proof.Proof.RefLayer

noncomputable section

namespace Cert.ReferenceIdeal.Layer

open Cert.ReferenceIdeal Cert.ReferenceIdeal.Gen Idealize.ShloMosaic Idealize.ShloMosaic.ValueIdx

/-- The first hidden layer's stage. -/
theorem stage1 (x0 : FVec Ideal S100000x128 .f32) (x1 : IVec S2x1600000 32) (x2 : FVec Ideal S1600000 .f32) (x3 : FVec Ideal S128x128 .f32)
    (x4 : FVec Ideal S128 .f32) (x5 : FVec Ideal S128x128 .f32) :
    Read.val_main_v32 (F := Ideal) x0 x1 x2 x3 x4 x5
      = hiddenOf (Read.val_main_v16 (F := Ideal) x0 x1 x2) x0 (Read.val_main_v20 (F := Ideal) x1) x3 x4 x5 := by
  unfold Read.val_main_v32 Read.val_main_v31 Read.val_main_call0_v0 Read.val_main_call0_cst Read.val_main_v30 Read.val_main_v29 Read.val_main_v28 Read.val_main_v27 Read.val_main_v26 Read.val_main_v25 Read.val_main_v24 Read.val_main_v23 Read.val_main_v22 Read.val_main_v21 Read.val_main_cst_3 hiddenOf affineOf
  with_reducible rfl

/-- The second hidden layer's stage. -/
theorem stage2 (x0 : FVec Ideal S100000x128 .f32) (x1 : IVec S2x1600000 32) (x2 : FVec Ideal S1600000 .f32) (x3 : FVec Ideal S128x128 .f32)
    (x4 : FVec Ideal S128 .f32) (x5 x6 : FVec Ideal S128x128 .f32) (x7 : FVec Ideal S128 .f32) (x8 : FVec Ideal S128x128 .f32) :
    Read.val_main_v61 (F := Ideal) x0 x1 x2 x3 x4 x5 x6 x7 x8
      = hiddenOf (Read.val_main_v45 (F := Ideal) x0 x1 x2 x3 x4 x5) (Read.val_main_v32 (F := Ideal) x0 x1 x2 x3 x4 x5)
          (Read.val_main_v49 (F := Ideal) x1) x6 x7 x8 := by
  unfold Read.val_main_v61 Read.val_main_call1_v0 Read.val_main_call1_cst Read.val_main_v60 Read.val_main_v59 Read.val_main_v58 Read.val_main_v57 Read.val_main_v56 Read.val_main_v55 Read.val_main_v54 Read.val_main_v53 Read.val_main_v52 Read.val_main_v51 Read.val_main_v50 Read.val_main_cst_9 hiddenOf affineOf
  with_reducible rfl

/-- The result's stage. -/
theorem stage3 (x0 : FVec Ideal S100000x128 .f32) (x1 : IVec S2x1600000 32) (x2 : FVec Ideal S1600000 .f32) (x3 : FVec Ideal S128x128 .f32)
    (x4 : FVec Ideal S128 .f32) (x5 x6 : FVec Ideal S128x128 .f32) (x7 : FVec Ideal S128 .f32) (x8 x9 : FVec Ideal S128x128 .f32)
    (x10 : FVec Ideal S128 .f32) (x11 : FVec Ideal S128x128 .f32) :
    Read.val_main_v89 (F := Ideal) x0 x1 x2 x3 x4 x5 x6 x7 x8 x9 x10 x11
      = affineOf (Read.val_main_v74 (F := Ideal) x0 x1 x2 x3 x4 x5 x6 x7 x8) (Read.val_main_v61 (F := Ideal) x0 x1 x2 x3 x4 x5 x6 x7 x8)
          (Read.val_main_v78 (F := Ideal) x1) x9 x10 x11 := by
  unfold Read.val_main_v89 Read.val_main_v88 Read.val_main_v87 Read.val_main_v86 Read.val_main_v85 Read.val_main_v84 Read.val_main_v83 Read.val_main_v82 Read.val_main_v81 Read.val_main_v80 Read.val_main_v79 Read.val_main_cst_15 affineOf
  with_reducible rfl

end Cert.ReferenceIdeal.Layer

end
-- ==== Proof.Bridge.lean ====
/-
  The two sides compute the same three layers.

  Both programs prepare each layer with the same whole-array operations of the edges — the source rows gathered
  (a negative index counted from the end), scaled by the edge weights, summed into destination rows; ones summed
  into destination nodes for the counts — under the same dimension numbers, so the reference's two scatter stages
  are the kernel side's neighbour sum and counts of the same arrays. With the summed rows and the counts equal,
  both sides' layers are the same formula at every node and feature; the second layer takes the first one's
  result, equal on both sides, and the third the second one's.
-/
import proofs.«170721_j13219909337540_1_alg».proof.Proof.KLayer
import proofs.«170721_j13219909337540_1_alg».proof.Proof.RefStages
import proofs.«170721_j13219909337540_1_alg».proof.Proof.Gen.KernelIdeal
import proofs.«170721_j13219909337540_1_alg».proof.Proof.Gen.ReferenceIdeal.Read

noncomputable section

namespace Cert.Bridge

open Idealize.ShloMosaic Idealize.ShloMosaic.ValueIdx
open Cert.ReferenceIdeal (S100000x128 S2x1600000 S1600000 S128x128 S128)

/-! ## The same dimension numbers on both sides -/

theorem scatter_rows : Cert.ReferenceIdeal.scatter_S100000x128_S1600000x1_S1600000x128_1_0_0_1 = Cert.KernelIdeal.scatter_S100000x128_S1600000x1_S1600000x128_1_0_0_1 := rfl
theorem scatter_counts : Cert.ReferenceIdeal.scatter_S100000_S1600000x1_S1600000_n_0_0_1 = Cert.KernelIdeal.scatter_S100000_S1600000x1_S1600000_n_0_0_1 := rfl
theorem gather_rows : Cert.ReferenceIdeal.gather_S100000x128_S1600000x1_S1600000x128_1_0_n_n_0_1_1128 = Cert.KernelIdeal.gather_S100000x128_S1600000x1_S1600000x128_1_0_n_n_0_1_1128 := rfl

/-! ## The reference's scatter stages are the neighbour sum and the counts -/

/-- The first layer's summed rows. -/
theorem sum1 (x0 : FVec Ideal S100000x128 .f32) (x1 : IVec S2x1600000 32) (x2 : FVec Ideal S1600000 .f32) :
    Cert.ReferenceIdeal.Read.val_main_v16 (F := Ideal) x0 x1 x2 = Cert.KernelIdeal.Layer.agg x1 x2 x0 := by
  unfold Cert.ReferenceIdeal.Read.val_main_v16 Cert.ReferenceIdeal.Read.val_main_v15 Cert.ReferenceIdeal.Read.val_main_v14 Cert.ReferenceIdeal.Read.val_main_cst Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_c_0 Cert.ReferenceIdeal.Read.val_main_v5 Cert.ReferenceIdeal.Read.val_main_v4 Cert.ReferenceIdeal.Read.val_main_c Cert.ReferenceIdeal.Read.val_main_v3 Cert.ReferenceIdeal.Read.val_main_v2 Cert.ReferenceIdeal.Read.val_main_v1 Cert.ReferenceIdeal.Read.val_main_v0 Cert.KernelIdeal.Layer.agg Cert.KernelIdeal.Layer.aggOf Cert.KernelIdeal.Layer.src Cert.KernelIdeal.Layer.dst
  rw [scatter_rows, gather_rows]

/-- The second layer's summed rows, of the first layer's result. -/
theorem sum2 (x0 : FVec Ideal S100000x128 .f32) (x1 : IVec S2x1600000 32) (x2 : FVec Ideal S1600000 .f32) (x3 : FVec Ideal S128x128 .f32)
    (x4 : FVec Ideal S128 .f32) (x5 : FVec Ideal S128x128 .f32) :
    Cert.ReferenceIdeal.Read.val_main_v45 (F := Ideal) x0 x1 x2 x3 x4 x5 = Cert.KernelIdeal.Layer.agg x1 x2 (Cert.ReferenceIdeal.Read.val_main_v32 (F := Ideal) x0 x1 x2 x3 x4 x5) := by
  unfold Cert.ReferenceIdeal.Read.val_main_v45 Cert.ReferenceIdeal.Read.val_main_v44 Cert.ReferenceIdeal.Read.val_main_v43 Cert.ReferenceIdeal.Read.val_main_cst_6 Cert.ReferenceIdeal.Read.val_main_v42 Cert.ReferenceIdeal.Read.val_main_v41 Cert.ReferenceIdeal.Read.val_main_v40 Cert.ReferenceIdeal.Read.val_main_v39 Cert.ReferenceIdeal.Read.val_main_v38 Cert.ReferenceIdeal.Read.val_main_v37 Cert.ReferenceIdeal.Read.val_main_v36 Cert.ReferenceIdeal.Read.val_main_v35 Cert.ReferenceIdeal.Read.val_main_c_5 Cert.ReferenceIdeal.Read.val_main_v34 Cert.ReferenceIdeal.Read.val_main_v33 Cert.ReferenceIdeal.Read.val_main_c_4 Cert.ReferenceIdeal.Read.val_main_v3 Cert.ReferenceIdeal.Read.val_main_v2 Cert.ReferenceIdeal.Read.val_main_v1 Cert.ReferenceIdeal.Read.val_main_v0 Cert.KernelIdeal.Layer.agg Cert.KernelIdeal.Layer.aggOf Cert.KernelIdeal.Layer.src Cert.KernelIdeal.Layer.dst
  rw [scatter_rows, gather_rows]

/-- The third layer's summed rows, of the second layer's result. -/
theorem sum3 (x0 : FVec Ideal S100000x128 .f32) (x1 : IVec S2x1600000 32) (x2 : FVec Ideal S1600000 .f32) (x3 : FVec Ideal S128x128 .f32)
    (x4 : FVec Ideal S128 .f32) (x5 : FVec Ideal S128x128 .f32) (x6 : FVec Ideal S128x128 .f32) (x7 : FVec Ideal S128 .f32) (x8 : FVec Ideal S128x128 .f32) :
    Cert.ReferenceIdeal.Read.val_main_v74 (F := Ideal) x0 x1 x2 x3 x4 x5 x6 x7 x8 = Cert.KernelIdeal.Layer.agg x1 x2 (Cert.ReferenceIdeal.Read.val_main_v61 (F := Ideal) x0 x1 x2 x3 x4 x5 x6 x7 x8) := by
  unfold Cert.ReferenceIdeal.Read.val_main_v74 Cert.ReferenceIdeal.Read.val_main_v73 Cert.ReferenceIdeal.Read.val_main_v72 Cert.ReferenceIdeal.Read.val_main_cst_12 Cert.ReferenceIdeal.Read.val_main_v71 Cert.ReferenceIdeal.Read.val_main_v70 Cert.ReferenceIdeal.Read.val_main_v69 Cert.ReferenceIdeal.Read.val_main_v68 Cert.ReferenceIdeal.Read.val_main_v67 Cert.ReferenceIdeal.Read.val_main_v66 Cert.ReferenceIdeal.Read.val_main_v65 Cert.ReferenceIdeal.Read.val_main_v64 Cert.ReferenceIdeal.Read.val_main_c_11 Cert.ReferenceIdeal.Read.val_main_v63 Cert.ReferenceIdeal.Read.val_main_v62 Cert.ReferenceIdeal.Read.val_main_c_10 Cert.ReferenceIdeal.Read.val_main_v3 Cert.ReferenceIdeal.Read.val_main_v2 Cert.ReferenceIdeal.Read.val_main_v1 Cert.ReferenceIdeal.Read.val_main_v0 Cert.KernelIdeal.Layer.agg Cert.KernelIdeal.Layer.aggOf Cert.KernelIdeal.Layer.src Cert.KernelIdeal.Layer.dst
  rw [scatter_rows, gather_rows]

/-- The counts, as each layer recomputes them. -/
theorem count1 (x1 : IVec S2x1600000 32) : Cert.ReferenceIdeal.Read.val_main_v20 (F := Ideal) x1 = Cert.KernelIdeal.Layer.deg x1 := by
  unfold Cert.ReferenceIdeal.Read.val_main_v20 Cert.ReferenceIdeal.Read.val_main_v19 Cert.ReferenceIdeal.Read.val_main_v18 Cert.ReferenceIdeal.Read.val_main_cst_2 Cert.ReferenceIdeal.Read.val_main_v17 Cert.ReferenceIdeal.Read.val_main_cst_1 Cert.ReferenceIdeal.Read.val_main_v3 Cert.ReferenceIdeal.Read.val_main_v2 Cert.KernelIdeal.Layer.deg Cert.KernelIdeal.Layer.dst
  rw [scatter_counts]
theorem count2 (x1 : IVec S2x1600000 32) : Cert.ReferenceIdeal.Read.val_main_v49 (F := Ideal) x1 = Cert.KernelIdeal.Layer.deg x1 := by
  unfold Cert.ReferenceIdeal.Read.val_main_v49 Cert.ReferenceIdeal.Read.val_main_v48 Cert.ReferenceIdeal.Read.val_main_v47 Cert.ReferenceIdeal.Read.val_main_cst_8 Cert.ReferenceIdeal.Read.val_main_v46 Cert.ReferenceIdeal.Read.val_main_cst_7 Cert.ReferenceIdeal.Read.val_main_v3 Cert.ReferenceIdeal.Read.val_main_v2 Cert.KernelIdeal.Layer.deg Cert.KernelIdeal.Layer.dst
  rw [scatter_counts]
theorem count3 (x1 : IVec S2x1600000 32) : Cert.ReferenceIdeal.Read.val_main_v78 (F := Ideal) x1 = Cert.KernelIdeal.Layer.deg x1 := by
  unfold Cert.ReferenceIdeal.Read.val_main_v78 Cert.ReferenceIdeal.Read.val_main_v77 Cert.ReferenceIdeal.Read.val_main_v76 Cert.ReferenceIdeal.Read.val_main_cst_14 Cert.ReferenceIdeal.Read.val_main_v75 Cert.ReferenceIdeal.Read.val_main_cst_13 Cert.ReferenceIdeal.Read.val_main_v3 Cert.ReferenceIdeal.Read.val_main_v2 Cert.KernelIdeal.Layer.deg Cert.KernelIdeal.Layer.dst
  rw [scatter_counts]

/-! ## The layers, one at a time -/

/-- The first hidden layer. -/
theorem layer1 (z₁ z₂ z₃ : FVec Ideal Cert.KernelIdeal.S_ .f32) (x0 : FVec Ideal S100000x128 .f32) (x1 : IVec S2x1600000 32) (x2 : FVec Ideal S1600000 .f32) (x3 : FVec Ideal S128x128 .f32)
    (x4 : FVec Ideal S128 .f32) (x5 : FVec Ideal S128x128 .f32) :
    Cert.KernelIdeal.Layer.layer true z₁ z₂ z₃ x1 x2 x3 x4 x5 x0 = Cert.ReferenceIdeal.Read.val_main_v32 (F := Ideal) x0 x1 x2 x3 x4 x5 := by
  funext i
  obtain ⟨r, q, rfl⟩ : ∃ (r : Fin 100000) (q : Fin 128), i = ix2 r q := ⟨i 0, i 1, eq_ix2 i⟩
  rw [Cert.KernelIdeal.Layer.layer_apply, Cert.ReferenceIdeal.Layer.stage1, Cert.ReferenceIdeal.Layer.hidden_apply, sum1, count1]

/-- The second hidden layer. -/
theorem layer2 (z₁ z₂ z₃ : FVec Ideal Cert.KernelIdeal.S_ .f32) (x0 : FVec Ideal S100000x128 .f32) (x1 : IVec S2x1600000 32) (x2 : FVec Ideal S1600000 .f32) (x3 : FVec Ideal S128x128 .f32)
    (x4 : FVec Ideal S128 .f32) (x5 : FVec Ideal S128x128 .f32) (x6 : FVec Ideal S128x128 .f32) (x7 : FVec Ideal S128 .f32) (x8 : FVec Ideal S128x128 .f32) :
    Cert.KernelIdeal.Layer.layer true z₁ z₂ z₃ x1 x2 x6 x7 x8 (Cert.ReferenceIdeal.Read.val_main_v32 (F := Ideal) x0 x1 x2 x3 x4 x5)
      = Cert.ReferenceIdeal.Read.val_main_v61 (F := Ideal) x0 x1 x2 x3 x4 x5 x6 x7 x8 := by
  funext i
  obtain ⟨r, q, rfl⟩ : ∃ (r : Fin 100000) (q : Fin 128), i = ix2 r q := ⟨i 0, i 1, eq_ix2 i⟩
  rw [Cert.KernelIdeal.Layer.layer_apply, Cert.ReferenceIdeal.Layer.stage2, Cert.ReferenceIdeal.Layer.hidden_apply, sum2, count2]

/-- The last layer. -/
theorem layer3 (z₁ z₂ z₃ : FVec Ideal Cert.KernelIdeal.S_ .f32) (x0 : FVec Ideal S100000x128 .f32) (x1 : IVec S2x1600000 32) (x2 : FVec Ideal S1600000 .f32) (x3 : FVec Ideal S128x128 .f32)
    (x4 : FVec Ideal S128 .f32) (x5 : FVec Ideal S128x128 .f32) (x6 : FVec Ideal S128x128 .f32) (x7 : FVec Ideal S128 .f32) (x8 : FVec Ideal S128x128 .f32)
    (x9 : FVec Ideal S128x128 .f32) (x10 : FVec Ideal S128 .f32) (x11 : FVec Ideal S128x128 .f32) :
    Cert.KernelIdeal.Layer.layer false z₁ z₂ z₃ x1 x2 x9 x10 x11 (Cert.ReferenceIdeal.Read.val_main_v61 (F := Ideal) x0 x1 x2 x3 x4 x5 x6 x7 x8)
      = Cert.ReferenceIdeal.Read.val_main_v89 (F := Ideal) x0 x1 x2 x3 x4 x5 x6 x7 x8 x9 x10 x11 := by
  funext i
  obtain ⟨r, q, rfl⟩ : ∃ (r : Fin 100000) (q : Fin 128), i = ix2 r q := ⟨i 0, i 1, eq_ix2 i⟩
  rw [Cert.KernelIdeal.Layer.layer_apply, Cert.ReferenceIdeal.Layer.stage3, Cert.ReferenceIdeal.Layer.last_apply, sum3, count3]

/-- THE TWO SIDES: the kernel side's three layers of the arguments are the reference's result stage. -/
theorem main (z₁ z₂ z₃ : FVec Ideal Cert.KernelIdeal.S_ .f32) (x0 : FVec Ideal S100000x128 .f32) (x1 : IVec S2x1600000 32) (x2 : FVec Ideal S1600000 .f32) (x3 : FVec Ideal S128x128 .f32)
    (x4 : FVec Ideal S128 .f32) (x5 : FVec Ideal S128x128 .f32) (x6 : FVec Ideal S128x128 .f32) (x7 : FVec Ideal S128 .f32) (x8 : FVec Ideal S128x128 .f32)
    (x9 : FVec Ideal S128x128 .f32) (x10 : FVec Ideal S128 .f32) (x11 : FVec Ideal S128x128 .f32) :
    Cert.KernelIdeal.Layer.layer false z₁ z₂ z₃ x1 x2 x9 x10 x11
        (Cert.KernelIdeal.Layer.layer true z₁ z₂ z₃ x1 x2 x6 x7 x8 (Cert.KernelIdeal.Layer.layer true z₁ z₂ z₃ x1 x2 x3 x4 x5 x0))
      = Cert.ReferenceIdeal.Read.val_main_v89 (F := Ideal) x0 x1 x2 x3 x4 x5 x6 x7 x8 x9 x10 x11 := by
  rw [layer1 z₁ z₂ z₃ x0 x1 x2 x3 x4 x5, layer2 z₁ z₂ z₃ x0 x1 x2 x3 x4 x5 x6 x7 x8]
  exact layer3 z₁ z₂ z₃ x0 x1 x2 x3 x4 x5 x6 x7 x8 x9 x10 x11

end Cert.Bridge

end
-- ==== Proof.lean ====
/-
  Three stacked mean-aggregating graph convolutions: the tiled kernel against the whole-array reference.

  Each layer sums, for every node, the edge-weighted feature rows of its incoming edges, divides the sum by
  max(number of incoming edges, 1), multiplies the mean by a weight matrix, adds a bias, adds the node's own
  features times a second weight matrix, and — in the first two layers — keeps the positive part. The kernel's
  program leaves the gathering and summing over edges to whole-array operations and computes the rest of each
  layer in a tiled region over the nodes padded to 49 tiles of 2048, narrowing the matrix products' operands
  to half precision; the reference computes every layer with whole-array operations at single precision.

  On the extended reals a change of format is the identity, a product accumulated into zero is the plain sum
  over the contracted features, a padded row is never read by a kept row, and the tiles cover the nodes: both
  programs compute, at every node and feature, the same formula of the same summed rows and counts, layer after
  layer. No law that fails at an infinity is used, so the inputs' finiteness is not needed for the values.

  The frames of the two kernel programs are the generated ones; the reference's frame is its generated run with
  the result dropped; the idealized kernel is the kernel's text read on the extended reals with nothing rewritten.
-/
import proofs.«170721_j13219909337540_1_alg».proof.Defs
import proofs.«170721_j13219909337540_1_alg».proof.Proof.Gen.Kernel
import proofs.«170721_j13219909337540_1_alg».proof.Proof.Gen.Kernel.Frame
import proofs.«170721_j13219909337540_1_alg».proof.Proof.Gen.KernelIdeal
import proofs.«170721_j13219909337540_1_alg».proof.Proof.Gen.KernelIdeal.Frame
import proofs.«170721_j13219909337540_1_alg».proof.Proof.Gen.ReferenceIdeal
import proofs.«170721_j13219909337540_1_alg».proof.Proof.Gen.ReferenceIdeal.Run
import proofs.«170721_j13219909337540_1_alg».proof.Proof.Gen.ReferenceIdeal.Read
import proofs.«170721_j13219909337540_1_alg».proof.Proof.Gen.Pre_finite_inputs
import proofs.«170721_j13219909337540_1_alg».proof.Proof.Run
import proofs.«170721_j13219909337540_1_alg».proof.Proof.Fold
import proofs.«170721_j13219909337540_1_alg».proof.Proof.Bridge
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading on the extended reals. -/
theorem preserves : Cert.preserves_Kernel_KernelIdeal := trivial

/-- From memories agreeing on the arguments both programs run, and end with the same array: the kernel's returned
    array is the third layer of the arguments (the fold through its regions), the reference's is its result stage,
    and the two are the same three layers. -/
theorem algebraic : Cert.algebraic_KernelIdeal_ReferenceIdeal := by
  intro m ρ m' ρ' _ hagree
  refine ⟨fun c => Cert.KernelIdeal.Fold.H3 m c, ?_, ?_⟩
  · exact (θ_run Cert.KernelIdeal.defs _ _).mono
      (fun r h c => ⟨(h c).1.trans (Cert.KernelIdeal.Fold.result m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v89_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    unfold Cert.KernelIdeal.Fold.H3 Cert.KernelIdeal.Fold.H2 Cert.KernelIdeal.Fold.H1
    exact (Cert.Bridge.main Cert.KernelIdeal.Fold.z0 Cert.KernelIdeal.Fold.z0 Cert.KernelIdeal.Fold.o1
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
